-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x22 : Shape := ⟨2, ![150000, 22]⟩
abbrev S2x2400000 : Shape := ⟨2, ![2, 2400000]⟩
abbrev S22x32 : Shape := ⟨2, ![22, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S_ : Shape := ⟨0, ![]⟩

class Facts : Prop where
  bcast_S_S150000x22 : S_.BroadcastsInDim S150000x22 (![] : Fin 0 → Fin S150000x22.rank)
  reducesTo_S150000x22_S_d0_1 : S150000x22.ReducesTo [0, 1] S_
  h_S_ : 0 < S_.numel
  bcast_S_S22x32 : S_.BroadcastsInDim S22x32 (![] : Fin 0 → Fin S22x32.rank)
  reducesTo_S22x32_S_d0_1 : S22x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S32x6 .f32) (main_arg9 : FVec F S6 .f32) (main_v33 : IVec S_ 1) : IVec S_ 1 :=
  let main_v34 : FVec F S32x6 .f32 := Host.absf main_arg8
  let main_cst_12 : FVec F S_ .f32 := constant S_ .f32 0x7F800000#32
  let main_v35 : FVec F S32x6 .f32 := broadcastInDim S32x6 ![] bcast_S_S32x6 main_cst_12
  let main_v36 : IVec S32x6 1 := cmpf .olt main_v34 main_v35
  let main_c_13 : IVec S_ 1 := constantI S_ 1 1#1
  let main_v37 : IVec S_ 1 := (fun x v => Host.reduce IntOp.andi x v reducesTo_S32x6_S_d0_1 h_S_) main_v36 main_c_13
  let main_v38 : IVec S_ 1 := andi main_v33 main_v37
  let main_v39 : FVec F S6 .f32 := Host.absf main_arg9
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg5 : FVec F S32 .f32) (main_arg6 : FVec F S32 .f32) (main_arg7 : FVec F S32 .f32) (main_arg8 : FVec F S32x6 .f32) (main_arg9 : FVec F S6 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S150000x22 .f32) (main_arg1 : IVec S2x2400000 32) (main_arg2 : FVec F S22x32 .f32) (main_arg3 : FVec F S32 .f32) (main_arg4 : FVec F S32x32 .f32) (main_arg5 : FVec F S32 .f32) (main_arg6 : FVec F S32 .f32) (main_arg7 : FVec F S32 .f32) (main_arg8 : FVec F S32x6 .f32) (main_arg9 : FVec F S6 .f32) : IVec S_ 1 :=
  let main_v0 : FVec F S150000x22 .f32 := Host.absf main_arg0
  let main_cst : FVec F S_ .f32 := constant S_ .f32 0x7F800000#32
  let main_v1 : FVec F S150000x22 .f32 := broadcastInDim S150000x22 ![] bcast_S_S150000x22 main_cst
  let main_v2 : IVec S150000x22 1 := cmpf .olt main_v0 main_v1
  let main_c : IVec S_ 1 := constantI S_ 1 1#1
  let main_v3 : IVec S_ 1 := (fun x v => Host.reduce IntOp.andi x v reducesTo_S150000x22_S_d0_1 h_S_) main_v2 main_c
  let main_v4 : FVec F S22x32 .f32 := Host.absf main_arg2
  let main_cst_0 : FVec F S_ .f32 := constant S_ .f32 0x7F800000#32
  let main_v5 : FVec F S22x32 .f32 := broadcastInDim S22x32 ![] bcast_S_S22x32 main_cst_0
  let main_v6 : IVec S22x32 1 := cmpf .olt main_v4 main_v5
  let main_c_1 : IVec S_ 1 := constantI S_ 1 1#1
  let main_v7 : IVec S_ 1 := (fun x v => Host.reduce IntOp.andi x v reducesTo_S22x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S150000x22 : Shape := ⟨2, ![150000, 22]⟩
abbrev S2x2400000 : Shape := ⟨2, ![2, 2400000]⟩
abbrev S22x32 : Shape := ⟨2, ![22, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S1x32 : Shape := ⟨2, ![1, 32]⟩
abbrev S150000x32 : Shape := ⟨2, ![150000, 32]⟩
abbrev S6000x22 : Shape := ⟨2, ![6000, 22]⟩
abbrev S6000x32 : Shape := ⟨2, ![6000, 32]⟩
abbrev S1x2400000 : Shape := ⟨2, ![1, 2400000]⟩
abbrev S2400000 : Shape := ⟨1, ![2400000]⟩
abbrev S150000 : Shape := ⟨1, ![150000]⟩
abbrev S2550000 : Shape := ⟨1, ![2550000]⟩
abbrev S_ : Shape := ⟨0, ![]⟩
abbrev S2550000x1 : Shape := ⟨2, ![2550000, 1]⟩
abbrev S2550000x32 : Shape := ⟨2, ![2550000, 32]⟩
abbrev S1x6 : Shape := ⟨2, ![1, 6]⟩
abbrev S150000x6 : Shape := ⟨2, ![150000, 6]⟩
abbrev S6000x6 : Shape := ⟨2, ![6000, 6]⟩

abbrev nBuf : Space → Nat
  | .hbm => 99
  | .vmem => 21
  | .smem => 0
  | _ => 0

abbrev bufTy : (tb : Table) → Fin (tcTables nBuf tb) → BufTy
  | .hbm, ⟨0, _⟩ => ⟨S150000x22, .f32⟩
  | .hbm, ⟨1, _⟩ => ⟨S2x2400000, .i32⟩
  | .hbm, ⟨2, _⟩ => ⟨S22x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x6, .f32⟩
  | .hbm, ⟨9, _⟩ => ⟨S6, .f32⟩
  | .hbm, ⟨10, _⟩ => ⟨S1x32, .f32⟩
  | .hbm, ⟨11, _⟩ => ⟨S150000x32, .f32⟩
  | .hbm, ⟨12, _⟩ => ⟨S1x2400000, .i32⟩
  | .hbm, ⟨13, _⟩ => ⟨S2400000, .i32⟩
  | .hbm, ⟨14, _⟩ => ⟨S1x2400000, .i32⟩
  | .hbm, ⟨15, _⟩ => ⟨S2400000, .i32⟩
  | .hbm, ⟨16, _⟩ => ⟨S150000, .i32⟩
  | .hbm, ⟨17, _⟩ => ⟨S2550000, .i32⟩
  | .hbm, ⟨18, _⟩ => ⟨S2550000, .i32⟩
  | .hbm, ⟨19, _⟩ => ⟨S_, .f32⟩
  | .hbm, ⟨20, _⟩ => ⟨S2550000, .f32⟩
  | .hbm, ⟨21, _⟩ => ⟨S_, .f32⟩
  | .hbm, ⟨22, _⟩ => ⟨S150000, .f32⟩
  | .hbm, ⟨23, _⟩ => ⟨S2550000x1, .i32⟩
  | .hbm, ⟨24, _⟩ => ⟨S150000, .f32⟩
  | .hbm, ⟨25, _⟩ => ⟨S_, .f32⟩
  | .hbm, ⟨26, _⟩ => ⟨S150000, .f32⟩
  | .hbm, ⟨27, _⟩ => ⟨S150000, .i1⟩
  | .hbm, ⟨28, _⟩ => ⟨S_, .f32⟩
  | .hbm, ⟨29, _⟩ => ⟨S150000, .f32⟩
  | .hbm, ⟨30, _⟩ => ⟨S150000, .i1⟩
  | .hbm, ⟨31, _⟩ => ⟨S_, .f32⟩
  | .hbm, ⟨32, _⟩ => ⟨S_, .f32⟩
  | .hbm, ⟨33, _⟩ => ⟨S150000, .f32⟩
  | .hbm, ⟨34, _⟩ => ⟨S150000, .f32⟩
  | .hbm, ⟨35, _⟩ => ⟨S150000, .f32⟩
  | .hbm, ⟨36, _⟩ => ⟨S_, .f32⟩
  | .hbm, ⟨37, _⟩ => ⟨S_, .f32⟩
  | .hbm, ⟨38, _⟩ => ⟨S150000, .f32⟩
  | .hbm, ⟨39, _⟩ => ⟨S150000, .f32⟩
  | .hbm, ⟨40, _⟩ => ⟨S_, .i32⟩
  | .hbm, ⟨41, _⟩ => ⟨S2550000, .i32⟩
  | .hbm, ⟨42, _⟩ => ⟨S2550000, .i1⟩
  | .hbm, ⟨43, _⟩ => ⟨S_, .i32⟩
  | .hbm, ⟨44, _⟩ => ⟨S2550000, .i32⟩
  | .hbm, ⟨45, _⟩ => ⟨S2550000, .i32⟩
  | .hbm, ⟨46, _⟩ => ⟨S2550000, .i32⟩
  | .hbm, ⟨47, _⟩ => ⟨S2550000x1, .i32⟩
  | .hbm, ⟨48, _⟩ => ⟨S2550000, .f32⟩
  | .hbm, ⟨49, _⟩ => ⟨S_, .i32⟩
  | .hbm, ⟨50, _⟩ => ⟨S2550000, .i32⟩
  | .hbm, ⟨51, _⟩ => ⟨S2550000, .i1⟩
  | .hbm, ⟨52, _⟩ => ⟨S_, .i32⟩
  | .hbm, ⟨53, _⟩ => ⟨S2550000, .i32⟩
  | .hbm, ⟨54, _⟩ => ⟨S2550000, .i32⟩
  | .hbm, ⟨55, _⟩ => ⟨S2550000, .i32⟩
  | .hbm, ⟨56, _⟩ => ⟨S2550000x1, .i32⟩
  | .hbm, ⟨57, _⟩ => ⟨S2550000, .f32⟩
  | .hbm, ⟨58, _⟩ => ⟨S2550000, .f32⟩
  | .hbm, ⟨59, _⟩ => ⟨S_, .i32⟩
  | .hbm, ⟨60, _⟩ => ⟨S2550000, .i32⟩
  | .hbm, ⟨61, _⟩ => ⟨S2550000, .i1⟩
  | .hbm, ⟨62, _⟩ => ⟨S_, .i32⟩
  | .hbm, ⟨63, _⟩ => ⟨S2550000, .i32⟩
  | .hbm, ⟨64, _⟩ => ⟨S2550000, .i32⟩
  | .hbm, ⟨65, _⟩ => ⟨S2550000, .i32⟩
  | .hbm, ⟨66, _⟩ => ⟨S2550000x1, .i32⟩
  | .hbm, ⟨67, _⟩ => ⟨S2550000x32, .f32⟩
  | .hbm, ⟨68, _⟩ => ⟨S2550000x1, .f32⟩
  | .hbm, ⟨69, _⟩ => ⟨S2550000x32, .f32⟩
  | .hbm, ⟨70, _⟩ => ⟨S2550000x32, .f32⟩
  | .hbm, ⟨71, _⟩ => ⟨S_, .f32⟩
  | .hbm, ⟨72, _⟩ => ⟨S150000x32, .f32⟩
  | .hbm, ⟨73, _⟩ => ⟨S2550000x1, .i32⟩
  | .hbm, ⟨74, _⟩ => ⟨S150000x32, .f32⟩
  | .hbm, ⟨75, _⟩ => ⟨S1x32, .f32⟩
  | .hbm, ⟨76, _⟩ => ⟨S150000x32, .f32⟩
  | .hbm, ⟨77, _⟩ => ⟨S150000x32, .f32⟩
  | .hbm, ⟨78, _⟩ => ⟨S1x32, .f32⟩
  | .hbm, ⟨79, _⟩ => ⟨S1x32, .f32⟩
  | .hbm, ⟨80, _⟩ => ⟨S_, .f32⟩
  | .hbm, ⟨81, _⟩ => ⟨S1x32, .f32⟩
  | .hbm, ⟨82, _⟩ => ⟨S1x32, .f32⟩
  | .hbm, ⟨83, _⟩ => ⟨S_, .f32⟩
  | .hbm, ⟨84, _⟩ => ⟨S1x32, .f32⟩
  | .hbm, ⟨85, _⟩ => ⟨S1x32, .f32⟩
  | .hbm, ⟨86, _⟩ => ⟨S1x32, .f32⟩
  | .hbm, ⟨87, _⟩ => ⟨S1x32, .f32⟩
  | .hbm, ⟨88, _⟩ => ⟨S_, .f32⟩
  | .hbm, ⟨89, _⟩ => ⟨S1x32, .f32⟩
  | .hbm, ⟨90, _⟩ => ⟨S1x32, .f32⟩
  | .hbm, ⟨91, _⟩ => ⟨S_, .f32⟩
  | .hbm, ⟨92, _⟩ => ⟨S1x32, .f32⟩
  | .hbm, ⟨93, _⟩ => ⟨S1x32, .f32⟩
  | .hbm, ⟨94, _⟩ => ⟨S1x32, .f32⟩
  | .hbm, ⟨95, _⟩ => ⟨S1x32, .f32⟩
  | .hbm, ⟨96, _⟩ => ⟨S1x32, .f32⟩
  | .hbm, ⟨97, _⟩ => ⟨S1x6, .f32⟩
  | .hbm, ⟨98, _⟩ => ⟨S150000x6, .f32⟩
  | .local _ .vmem, ⟨0, _⟩ => ⟨S6000x22, .f32⟩
  | .local _ .vmem, ⟨1, _⟩ => ⟨S6000x22, .f32⟩
  | .local _ .vmem, ⟨2, _⟩ => ⟨S22x32, .f32⟩
  | .local _ .vmem, ⟨3, _⟩ => ⟨S1x32, .f32⟩
  | .local _ .vmem, ⟨4, _⟩ => ⟨S32x32, .f32⟩
  | .local _ .vmem, ⟨5, _⟩ => ⟨S6000x32, .f32⟩
  | .local _ .vmem, ⟨6, _⟩ => ⟨S6000x32, .f32⟩
  | .local _ .vmem, ⟨7, _⟩ => ⟨S6000x32, .f32⟩
  | .local _ .vmem, ⟨8, _⟩ => ⟨S6000x32, .f32⟩
  | .local _ .vmem, ⟨9, _⟩ => ⟨S1x32, .f32⟩
  | .local _ .vmem, ⟨10, _⟩ => ⟨S1x32, .f32⟩
  | .local _ .vmem, ⟨11, _⟩ => ⟨S6000x32, .f32⟩
  | .local _ .vmem, ⟨12, _⟩ => ⟨S6000x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S32x6, .f32⟩
  | .local _ .vmem, ⟨18, _⟩ => ⟨S1x6, .f32⟩
  | .local _ .vmem, ⟨19, _⟩ => ⟨S6000x6, .f32⟩
  | .local _ .vmem, ⟨20, _⟩ => ⟨S6000x6, .f32⟩
  | _, _ => ⟨S150000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x6 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6000x6 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S32_S1x32 : S32.ShapeCasts S1x32
  inb_S6000x22_S6000x22_0_0 : ∀ a, (![0, 0] : Fin 2 → Nat) a + S6000x22.size a ≤ S6000x22.size a
  h_S6000x22 : 0 < S6000x22.numel
  bitsLt_bf16_f32 : FTy.bits .bf16 < FTy.bits .f32
  inb_S22x32_S22x32_0_0 : ∀ a, (![0, 0] : Fin 2 → Nat) a + S22x32.size a ≤ S22x32.size a
  h_S22x32 : 0 < S22x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S6000x32_S6000x32_0_0 : ∀ a, (![0, 0] : Fin 2 → Nat) a + S6000x32.size a ≤ S6000x32.size a
  h_S6000x32 : 0 < S6000x32.numel
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  concatenates_S2400000_S150000_S2550000_d0 : Shape.Concatenates [S2400000, S150000] S2550000 0
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  shapeCasts_S6000x32_S6000x32 : S6000x32.ShapeCasts S6000x32
  reduces_S6000x32_S32 : S6000x32.Reduces [0] S32
  bcast_S_S1x32 : S_.BroadcastsInDim S1x32 (![] : Fin 0 → Fin S1x32.rank)
  shapeCasts_S6_S1x6 : S6.ShapeCasts S1x6
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S6000x6 : S1x6.Broadcasts S6000x6
  inb_S6000x6_S6000x6_0_0 : ∀ a, (![0, 0] : Fin 2 → Nat) a + S6000x6.size a ≤ S6000x6.size a
  h_S6000x6 : 0 < S6000x6.numel
  dot_S6000x22_S22x32_S6000x32_1_0_0_1_n_n_wf : DotDims.WF S6000x22 S22x32 S6000x32 [1] [0] [0] [1] [] []
  dot_S6000x32_S32x32_S6000x32_1_0_0_1_n_n_wf : DotDims.WF S6000x32 S32x32 S6000x32 [1] [0] [0] [1] [] []
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S6000x32_S32x6_S6000x6_1_0_0_1_n_n_wf : DotDims.WF S6000x32 S32x6 S6000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x22.size a ≤ S150000x22.size a
  hwx0_0 : ∀ i : grid0.Coords, EltTy.bits .f32 = 32 ∨ (Rect.block (s := S150000x22) S6000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x32.size a ≤ S22x32.size a
  hwx0_1 : ∀ i : grid0.Coords, EltTy.bits .f32 = 32 ∨ (Rect.block (s := S22x32) S22x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x32.size a ≤ S150000x32.size a
  hwx0_4 : ∀ i : grid0.Coords, EltTy.bits .f32 = 32 ∨ (Rect.block (s := S150000x32) S6000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S150000x32.size a
  hwx2_0 : ∀ i : grid2.Coords, EltTy.bits .f32 = 32 ∨ (Rect.block (s := S150000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x6.size a ≤ S32x6.size a
  hwx2_5 : ∀ i : grid2.Coords, EltTy.bits .f32 = 32 ∨ (Rect.block (s := S32x6) S32x6.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x6.size a ≤ S1x6.size a
  hwx2_6 : ∀ i : grid2.Coords, EltTy.bits .f32 = 32 ∨ (Rect.block (s := S1x6) S1x6.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x6.size a ≤ S150000x6.size a
  hwx2_7 : ∀ i : grid2.Coords, EltTy.bits .f32 = 32 ∨ (Rect.block (s := S150000x6) S6000x6.size (cc2_transform_7 i) (hinb2_7 i)).WholeWords (EltTy.packing .f32)

variable [Facts₀]

def dot_S6000x22_S22x32_S6000x32_1_0_0_1_n_n : DotDims S6000x22 S22x32 S6000x32 where
  lhsContracting := [1]
  rhsContracting := [0]
  lhsNonContracting := [0]
  rhsNonContracting := [1]
  lhsBatch := []
  rhsBatch := []
  wf := dot_S6000x22_S22x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S6000x32_S32x6_S6000x6_1_0_0_1_n_n : DotDims S6000x32 S32x6 S6000x6 where
  lhsContracting := [1]
  rhsContracting := [0]
  lhsNonContracting := [0]
  rhsNonContracting := [1]
  lhsBatch := []
  rhsBatch := []
  wf := dot_S6000x32_S32x6_S6000x6_1_0_0_1_n_n_wf

abbrev win0_0 : Pipeline.Window sig grid0 :=
  Pipeline.Window.ofSpec (Memref.whole main_arg0) S6000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S22x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S6000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51_0) S1x32.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_1) S1x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S32x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x6.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S6000x6.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S150000x22 : Shape := ⟨2, ![150000, 22]⟩
abbrev S2x2400000 : Shape := ⟨2, ![2, 2400000]⟩
abbrev S22x32 : Shape := ⟨2, ![22, 32]⟩
abbrev S32 : Shape := ⟨1, ![32]⟩
abbrev S32x32 : Shape := ⟨2, ![32, 32]⟩
abbrev S32x6 : Shape := ⟨2, ![32, 6]⟩
abbrev S6 : Shape := ⟨1, ![6]⟩
abbrev S150000x32 : Shape := ⟨2, ![150000, 32]⟩
abbrev S1x32 : Shape := ⟨2, ![1, 32]⟩
abbrev S_ : Shape := ⟨0, ![]⟩
abbrev S150000 : Shape := ⟨1, ![150000]⟩
abbrev S1x2400000 : Shape := ⟨2, ![1, 2400000]⟩
abbrev S2400000 : Shape := ⟨1, ![2400000]⟩
abbrev S2550000 : Shape := ⟨1, ![2550000]⟩
abbrev S2550000x1 : Shape := ⟨2, ![2550000, 1]⟩
abbrev S2550000x32 : Shape := ⟨2, ![2550000, 32]⟩
abbrev S150000x6 : Shape := ⟨2, ![150000, 6]⟩
abbrev S1x6 : Shape := ⟨2, ![1, 6]⟩

abbrev nBuf : Space → Nat
  | .hbm => 121
  | .vmem => 0
  | .smem => 0
  | _ => 0

abbrev bufTy : (tb : Table) → Fin (tcTables nBuf tb) → BufTy
  | .hbm, ⟨0, _⟩ => ⟨S150000x22, .f32⟩
  | .hbm, ⟨1, _⟩ => ⟨S2x2400000, .i32⟩
  | .hbm, ⟨2, _⟩ => ⟨S22x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x6, .f32⟩
  | .hbm, ⟨9, _⟩ => ⟨S6, .f32⟩
  | .hbm, ⟨10, _⟩ => ⟨S150000x32, .f32⟩
  | .hbm, ⟨11, _⟩ => ⟨S1x32, .f32⟩
  | .hbm, ⟨12, _⟩ => ⟨S150000x32, .f32⟩
  | .hbm, ⟨13, _⟩ => ⟨S150000x32, .f32⟩
  | .hbm, ⟨14, _⟩ => ⟨S_, .f32⟩
  | .hbm, ⟨15, _⟩ => ⟨S150000x32, .f32⟩
  | .hbm, ⟨16, _⟩ => ⟨S150000x32, .f32⟩
  | .hbm, ⟨17, _⟩ => ⟨S150000x32, .f32⟩
  | .hbm, ⟨18, _⟩ => ⟨S150000, .i32⟩
  | .hbm, ⟨19, _⟩ => ⟨S1x2400000, .i32⟩
  | .hbm, ⟨20, _⟩ => ⟨S2400000, .i32⟩
  | .hbm, ⟨21, _⟩ => ⟨S2550000, .i32⟩
  | .hbm, ⟨22, _⟩ => ⟨S1x2400000, .i32⟩
  | .hbm, ⟨23, _⟩ => ⟨S2400000, .i32⟩
  | .hbm, ⟨24, _⟩ => ⟨S2550000, .i32⟩
  | .hbm, ⟨25, _⟩ => ⟨S_, .f32⟩
  | .hbm, ⟨26, _⟩ => ⟨S2550000, .f32⟩
  | .hbm, ⟨27, _⟩ => ⟨S_, .f32⟩
  | .hbm, ⟨28, _⟩ => ⟨S150000, .f32⟩
  | .hbm, ⟨29, _⟩ => ⟨S2550000x1, .i32⟩
  | .hbm, ⟨30, _⟩ => ⟨S150000, .f32⟩
  | .hbm, ⟨31, _⟩ => ⟨S_, .f32⟩
  | .hbm, ⟨32, _⟩ => ⟨S150000, .f32⟩
  | .hbm, ⟨33, _⟩ => ⟨S150000, .i1⟩
  | .hbm, ⟨34, _⟩ => ⟨S_, .f32⟩
  | .hbm, ⟨35, _⟩ => ⟨S150000, .f32⟩
  | .hbm, ⟨36, _⟩ => ⟨S150000, .i1⟩
  | .hbm, ⟨37, _⟩ => ⟨S_, .f32⟩
  | .hbm, ⟨38, _⟩ => ⟨S_, .f32⟩
  | .hbm, ⟨39, _⟩ => ⟨S150000, .f32⟩
  | .hbm, ⟨40, _⟩ => ⟨S150000, .f32⟩
  | .hbm, ⟨41, _⟩ => ⟨S150000, .f32⟩
  | .hbm, ⟨42, _⟩ => ⟨S_, .f32⟩
  | .hbm, ⟨43, _⟩ => ⟨S_, .f32⟩
  | .hbm, ⟨44, _⟩ => ⟨S150000, .f32⟩
  | .hbm, ⟨45, _⟩ => ⟨S150000, .f32⟩
  | .hbm, ⟨46, _⟩ => ⟨S_, .i32⟩
  | .hbm, ⟨47, _⟩ => ⟨S2550000, .i32⟩
  | .hbm, ⟨48, _⟩ => ⟨S2550000, .i1⟩
  | .hbm, ⟨49, _⟩ => ⟨S_, .i32⟩
  | .hbm, ⟨50, _⟩ => ⟨S2550000, .i32⟩
  | .hbm, ⟨51, _⟩ => ⟨S2550000, .i32⟩
  | .hbm, ⟨52, _⟩ => ⟨S2550000, .i32⟩
  | .hbm, ⟨53, _⟩ => ⟨S2550000x1, .i32⟩
  | .hbm, ⟨54, _⟩ => ⟨S2550000, .f32⟩
  | .hbm, ⟨55, _⟩ => ⟨S_, .i32⟩
  | .hbm, ⟨56, _⟩ => ⟨S2550000, .i32⟩
  | .hbm, ⟨57, _⟩ => ⟨S2550000, .i1⟩
  | .hbm, ⟨58, _⟩ => ⟨S_, .i32⟩
  | .hbm, ⟨59, _⟩ => ⟨S2550000, .i32⟩
  | .hbm, ⟨60, _⟩ => ⟨S2550000, .i32⟩
  | .hbm, ⟨61, _⟩ => ⟨S2550000, .i32⟩
  | .hbm, ⟨62, _⟩ => ⟨S2550000x1, .i32⟩
  | .hbm, ⟨63, _⟩ => ⟨S2550000, .f32⟩
  | .hbm, ⟨64, _⟩ => ⟨S2550000, .f32⟩
  | .hbm, ⟨65, _⟩ => ⟨S_, .i32⟩
  | .hbm, ⟨66, _⟩ => ⟨S2550000, .i32⟩
  | .hbm, ⟨67, _⟩ => ⟨S2550000, .i1⟩
  | .hbm, ⟨68, _⟩ => ⟨S_, .i32⟩
  | .hbm, ⟨69, _⟩ => ⟨S2550000, .i32⟩
  | .hbm, ⟨70, _⟩ => ⟨S2550000, .i32⟩
  | .hbm, ⟨71, _⟩ => ⟨S2550000, .i32⟩
  | .hbm, ⟨72, _⟩ => ⟨S2550000x1, .i32⟩
  | .hbm, ⟨73, _⟩ => ⟨S2550000x32, .f32⟩
  | .hbm, ⟨74, _⟩ => ⟨S2550000x1, .f32⟩
  | .hbm, ⟨75, _⟩ => ⟨S2550000x32, .f32⟩
  | .hbm, ⟨76, _⟩ => ⟨S2550000x32, .f32⟩
  | .hbm, ⟨77, _⟩ => ⟨S_, .f32⟩
  | .hbm, ⟨78, _⟩ => ⟨S150000x32, .f32⟩
  | .hbm, ⟨79, _⟩ => ⟨S2550000x1, .i32⟩
  | .hbm, ⟨80, _⟩ => ⟨S150000x32, .f32⟩
  | .hbm, ⟨81, _⟩ => ⟨S1x32, .f32⟩
  | .hbm, ⟨82, _⟩ => ⟨S150000x32, .f32⟩
  | .hbm, ⟨83, _⟩ => ⟨S150000x32, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S1x32, .f32⟩
  | .hbm, ⟨90, _⟩ => ⟨S150000x32, .f32⟩
  | .hbm, ⟨91, _⟩ => ⟨S150000x32, .f32⟩
  | .hbm, ⟨92, _⟩ => ⟨S150000x32, .f32⟩
  | .hbm, ⟨93, _⟩ => ⟨S_, .f32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S1x32, .f32⟩
  | .hbm, ⟨99, _⟩ => ⟨S150000x32, .f32⟩
  | .hbm, ⟨100, _⟩ => ⟨S150000x32, .f32⟩
  | .hbm, ⟨101, _⟩ => ⟨S_, .f32⟩
  | .hbm, ⟨102, _⟩ => ⟨S32, .f32⟩
  | .hbm, ⟨103, _⟩ => ⟨S32, .f32⟩
  | .hbm, ⟨104, _⟩ => ⟨S32, .f32⟩
  | .hbm, ⟨105, _⟩ => ⟨S1x32, .f32⟩
  | .hbm, ⟨106, _⟩ => ⟨S150000x32, .f32⟩
  | .hbm, ⟨107, _⟩ => ⟨S150000x32, .f32⟩
  | .hbm, ⟨108, _⟩ => ⟨S1x32, .f32⟩
  | .hbm, ⟨109, _⟩ => ⟨S150000x32, .f32⟩
  | .hbm, ⟨110, _⟩ => ⟨S150000x32, .f32⟩
  | .hbm, ⟨111, _⟩ => ⟨S1x32, .f32⟩
  | .hbm, ⟨112, _⟩ => ⟨S150000x32, .f32⟩
  | .hbm, ⟨113, _⟩ => ⟨S150000x32, .f32⟩
  | .hbm, ⟨114, _⟩ => ⟨S_, .f32⟩
  | .hbm, ⟨115, _⟩ => ⟨S150000x32, .f32⟩
  | .hbm, ⟨116, _⟩ => ⟨S150000x32, .f32⟩
  | .hbm, ⟨117, _⟩ => ⟨S150000x6, .f32⟩
  | .hbm, ⟨118, _⟩ => ⟨S1x6, .f32⟩
  | .hbm, ⟨119, _⟩ => ⟨S150000x6, .f32⟩
  | .hbm, ⟨120, _⟩ => ⟨S150000x6, .f32⟩
  | _, _ => ⟨S150000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call3_cst : Ref sig .tc := ⟨.hbm, 114, rfl⟩
abbrev main_call3_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S_S150000x32 : S_.BroadcastsInDim S150000x32 (![] : Fin 0 → Fin S150000x32.rank)
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  bcast_S2550000x1_S2550000x32_0_1 : S2550000x1.BroadcastsInDim S2550000x32 (![0, 1] : Fin 2 → Fin S2550000x32.rank)
  reducesTo_S150000x32_S32_d0 : S150000x32.ReducesTo [0] S32
  h_S_ : 0 < S_.numel
  bcast_S_S32 : S_.BroadcastsInDim S32 (![] : Fin 0 → Fin S32.rank)
  bcast_S6_S1x6_1 : S6.BroadcastsInDim S1x6 (![1] : Fin 1 → Fin S1x6.rank)
  bcast_S1x6_S150000x6_0_1 : S1x6.BroadcastsInDim S150000x6 (![0, 1] : Fin 2 → Fin S150000x6.rank)
  dot_S150000x22_S22x32_S150000x32_1_0_0_1_n_n_wf : DotDims.WF S150000x22 S22x32 S150000x32 [1] [0] [0] [1] [] []
  dot_S150000x32_S32x32_S150000x32_1_0_0_1_n_n_wf : DotDims.WF S150000x32 S32x32 S150000x32 [1] [0] [0] [1] [] []
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S150000x32_S32x6_S150000x6_1_0_0_1_n_n_wf : DotDims.WF S150000x32 S32x6 S150000x6 [1] [0] [0] [1] [] []

variable [Facts₀]

def dot_S150000x22_S22x32_S150000x32_1_0_0_1_n_n : DotDims S150000x22 S22x32 S150000x32 where
  lhsContracting := [1]
  rhsContracting := [0]
  lhsNonContracting := [0]
  rhsNonContracting := [1]
  lhsBatch := []
  rhsBatch := []
  wf := dot_S150000x22_S22x32_S150000x32_1_0_0_1_n_n_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S150000x32_S32x6_S150000x6_1_0_0_1_n_n : DotDims S150000x32 S32x6 S150000x6 where
  lhsContracting := [1]
  rhsContracting := [0]
  lhsNonContracting := [0]
  rhsNonContracting := [1]
  lhsBatch := []
  rhsBatch := []
  wf := dot_S150000x32_S32x6_S150000x6_1_0_0_1_n_n_wf

class Facts : Prop extends Facts₀ where

variable [Facts]
-- ==== Proof.Spec.lean ====
/-
  The mathematics of this certificate, stated once over the literal shapes and with no program in sight: what each
  of the three kernels computes of whole arrays, index by index on the extended reals, the two forms of the
  batch-normalisation statistics (the kernel's: mean of squares minus squared mean, clamped at zero; the
  reference's: mean of squared deviations), and the predicate "every entry is a real number" under which the
  two forms agree.
-/
import Idealize.ShloMosaic.PureOps.Ideal
import Idealize.ShloMosaic.Lib.ValueIdx

noncomputable section

open scoped BigOperators

namespace Cert.Spec

open Idealize.ShloMosaic Idealize.ShloMosaic.ValueIdx

/-! ## Shapes: N = 150000 nodes, 22 input features, 32 hidden features, 6 classes -/

abbrev SNx22 : Shape := ⟨2, ![150000, 22]⟩
abbrev SNx32 : Shape := ⟨2, ![150000, 32]⟩
abbrev SNx6 : Shape := ⟨2, ![150000, 6]⟩
abbrev S22x32 : Shape := ⟨2, ![22, 32]⟩
abbrev S32x32 : Shape := ⟨2, ![32, 32]⟩
abbrev S32x6 : Shape := ⟨2, ![32, 6]⟩
abbrev S1x32 : Shape := ⟨2, ![1, 32]⟩
abbrev S1x6 : Shape := ⟨2, ![1, 6]⟩
abbrev S32 : Shape := ⟨1, ![32]⟩
abbrev S6 : Shape := ⟨1, ![6]⟩

/-! ## The three literals the programs share: 0.0, 150000.0 and the f32 nearest 1e-5 -/

/-- The f32 word of `0.0` (the clamp of both rectifiers and of the variance). -/
abbrev zeroLit : EReal := Ideal.ofBits .f32 0x00000000#32
/-- The f32 word of `150000.0` (the number of rows, the divisor of both means). -/
abbrev rowsLit : EReal := Ideal.ofBits .f32 0x48127C00#32
/-- The f32 word nearest `1e-5` (added to the variance before the inverse square root). -/
abbrev epsLit : EReal := Ideal.ofBits .f32 0x3727C5AC#32

/-- Every entry of an array of extended reals is a real number. -/
def AllReal {S : Shape} (v : S.Idx → EReal) : Prop := ∀ i, ∃ r : ℝ, v i = (r : EReal)

/-! ## Kernel 1: the embedding, rectified, times the graph layer's weights -/

/-- `relu(x · W_emb + b_emb) · W_gcn` at row `i 0`, column `i 1`; the bias as a one-row matrix. -/
def hidden (x : SNx22.Idx → EReal) (We : S22x32.Idx → EReal) (be : S1x32.Idx → EReal) (Wg : S32x32.Idx → EReal) :
    SNx32.Idx → EReal :=
  fun i => ∑ k : Fin 32, max ((∑ j : Fin 22, x (ix2 (i 0) j) * We (ix2 j k)) + be (ix2 0 k)) zeroLit * Wg (ix2 k (i 1))

/-! ## Kernel 2: the column sums and the column sums of squares, as one-row matrices -/

/-- Column `i 1`'s sum over all rows. -/
def colSum (a : SNx32.Idx → EReal) : S1x32.Idx → EReal := fun i => ∑ r : Fin 150000, a (ix2 r (i 1))
/-- Column `i 1`'s sum of squares over all rows. -/
def colSumSq (a : SNx32.Idx → EReal) : S1x32.Idx → EReal := fun i => ∑ r : Fin 150000, a (ix2 r (i 1)) * a (ix2 r (i 1))

/-! ## Between kernels 2 and 3: the statistics in the kernel's form -/

/-- The column means: the sums over the number of rows. -/
def meanRow (s : S1x32.Idx → EReal) : S1x32.Idx → EReal := fun i => Ideal.div (s i) rowsLit
/-- `1 / sqrt(max(E[a²] − E[a]², 0) + ε)` per column, from the sums `s` and the sums of squares `q`. -/
def invStdRow (s q : S1x32.Idx → EReal) : S1x32.Idx → EReal :=
  fun i => Ideal.rsqrt (max (Ideal.div (q i) rowsLit - meanRow s i * meanRow s i) zeroLit + epsLit)

/-! ## Kernel 3: normalise, scale and shift, rectify, classify -/

/-- `relu((a − mean) · invstd · γ + β) · W_cls + b_cls` at row `i 0`, class `i 1`; the per-column vectors as one-row
    matrices. -/
def classify (a : SNx32.Idx → EReal) (mean invstd γ β : S1x32.Idx → EReal) (Wc : S32x6.Idx → EReal)
    (bc : S1x6.Idx → EReal) : SNx6.Idx → EReal :=
  fun i => (∑ k : Fin 32,
      max ((((a (ix2 (i 0) k) - mean (ix2 0 k)) * invstd (ix2 0 k)) * γ (ix2 0 k)) + β (ix2 0 k)) zeroLit * Wc (ix2 k (i 1)))
    + bc (ix2 0 (i 1))

/-! ## The reference's form of the same layer: statistics by squared deviations, per-column vectors as vectors -/

/-- The reference's column mean: the host sum (its initial value `0.0` plus the entries) over the number of rows. -/
def refMean (a : SNx32.Idx → EReal) (k : Fin 32) : EReal := Ideal.div (zeroLit + ∑ r : Fin 150000, a (ix2 r k)) rowsLit
/-- The reference's column variance: the mean of the squared deviations from the column mean. -/
def refVar (a : SNx32.Idx → EReal) (k : Fin 32) : EReal :=
  Ideal.div (zeroLit + ∑ r : Fin 150000, (a (ix2 r k) - refMean a k) * (a (ix2 r k) - refMean a k)) rowsLit
/-- The reference's output: `relu((a − mean) · rsqrt(var + ε) · γ + β) · W_cls + b_cls`. -/
def refClassify (a : SNx32.Idx → EReal) (γ β : S32.Idx → EReal) (Wc : S32x6.Idx → EReal) (bc : S6.Idx → EReal) :
    SNx6.Idx → EReal :=
  fun i => (∑ k : Fin 32,
      max ((((a (ix2 (i 0) k) - refMean a k) * Ideal.rsqrt (refVar a k + epsLit)) * γ (ix1 k)) + β (ix1 k)) zeroLit
        * Wc (ix2 k (i 1)))
    + bc (ix1 (i 1))

/-- A vector of 32 laid out as a one-row matrix. -/
def row32 (v : S32.Idx → EReal) : S1x32.Idx → EReal := fun i => v (ix1 (i 1))
/-- A vector of 6 laid out as a one-row matrix. -/
def row6 (v : S6.Idx → EReal) : S1x6.Idx → EReal := fun i => v (ix1 (i 1))

end Cert.Spec

end
-- ==== Proof.Law.lean ====
/-
  The law of this certificate, on the extended reals and with no program in sight.

  The kernel computes the batch variance of a column as  max(E[a²] − E[a]², 0),  from the column's sum and its sum of
  squares; the reference computes it as the mean of the squared deviations,  E[(a − E[a])²].  For a column of REAL
  numbers f r (r ranging over a finite set of N > 0 rows) the two agree:

      (∑ f²)/N − ((∑ f)/N)²  =  (∑ (f − (∑ f)/N)²)/N,

  because  ∑ (f − μ)² = ∑ f² − 2 μ ∑ f + N μ²  and  ∑ f = N μ  for  μ = (∑ f)/N.  The right side is a mean of squares,
  hence ≥ 0, so the clamp at zero is the identity.  On the extended reals the identity needs every entry to be a real
  number (at an infinite entry  ∞ − ∞  appears), which is why the predicate "every entry is real" is assumed; real
  entries are pulled out of the coercion ℝ → EReal, the identity is proved in ℝ over an abstract finite index type
  (nothing ever enumerates the 150000 rows), and pushed back.

  Consequences, per column k: the kernel's mean row is the reference's mean, the kernel's inverse standard deviation is
  the reference's  rsqrt(var + ε),  and hence the kernel's classifier output equals the reference's, entry by entry.

  Also here: the first kernel's output  relu(x·W_emb + b_emb)·W_gcn  has only real entries when its four arguments do
  (reals are closed under finite sums, products and max with 0).
-/
import proofs.«176874_j1047972020880_2_alg».proof.Proof.Spec
import Idealize.ShloMosaic.PureOps.Ideal.Laws
import Mathlib.Tactic

noncomputable section

open scoped BigOperators

namespace Cert.Spec

open Idealize.ShloMosaic Idealize.ShloMosaic.ValueIdx

/-! ## The literals -/

/-- The word 0x48127C00 denotes the real number 150000: exponent field 144 (2^17), fraction 1211392, and
    (2^23 + 1211392) · 2^(17 − 23) = 9600000 / 64 = 150000. -/
theorem rowsLit_eq : rowsLit = ((150000 : ℝ) : EReal) := by
  simp [Ideal.ofBits, Ideal.ieee, -EReal.coe_mul]; norm_num

namespace Law

/-- The word of 0.0 denotes 0. -/
theorem zeroLit_eq : zeroLit = 0 := Ideal.ofBits_zero_f32

/-! ## Real numbers inside the extended reals -/

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → EReal commutes with max. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem real_add {x y : EReal} (hx : ∃ r : ℝ, x = (r : EReal)) (hy : ∃ r : ℝ, y = (r : EReal)) :
    ∃ r : ℝ, x + y = (r : EReal) := by
  obtain ⟨p, rfl⟩ := hx; obtain ⟨q, rfl⟩ := hy; exact ⟨p + q, (EReal.coe_add p q).symm⟩

theorem real_mul {x y : EReal} (hx : ∃ r : ℝ, x = (r : EReal)) (hy : ∃ r : ℝ, y = (r : EReal)) :
    ∃ r : ℝ, x * y = (r : EReal) := by
  obtain ⟨p, rfl⟩ := hx; obtain ⟨q, rfl⟩ := hy; exact ⟨p * q, (EReal.coe_mul p q).symm⟩

theorem real_max {x y : EReal} (hx : ∃ r : ℝ, x = (r : EReal)) (hy : ∃ r : ℝ, y = (r : EReal)) :
    ∃ r : ℝ, max x y = (r : EReal) := by
  obtain ⟨p, rfl⟩ := hx; obtain ⟨q, rfl⟩ := hy; exact ⟨max p q, coe_max p q⟩

theorem real_sum {ι : Type*} (s : Finset ι) (g : ι → EReal) (h : ∀ i, ∃ r : ℝ, g i = (r : EReal)) :
    ∃ r : ℝ, ∑ i ∈ s, g i = (r : EReal) := by
  choose f hf using h
  exact ⟨∑ i ∈ s, f i, by rw [coe_sum]; exact Finset.sum_congr rfl (fun i _ => hf i)⟩

theorem real_zeroLit : ∃ r : ℝ, zeroLit = (r : EReal) := ⟨0, by rw [zeroLit_eq, EReal.coe_zero]⟩

/-! ## The identity in ℝ, over an abstract finite index type -/

/-- The sum of squared deviations from any μ, expanded. -/
theorem sum_sq_dev {ι : Type*} [Fintype ι] (f : ι → ℝ) (μ : ℝ) :
    ∑ r, (f r - μ) * (f r - μ)
      = (∑ r, f r * f r) - 2 * μ * (∑ r, f r) + (Fintype.card ι : ℝ) * (μ * μ) := by
  have h : ∀ r, (f r - μ) * (f r - μ) = f r * f r - 2 * μ * f r + μ * μ := fun r => by ring
  simp only [h, Finset.sum_add_distrib, Finset.sum_sub_distrib, ← Finset.mul_sum, Finset.sum_const,
    Finset.card_univ, nsmul_eq_mul]
  ring

/-- Mean of squares minus squared mean is the mean of squared deviations from the mean. -/
theorem var_two_forms {ι : Type*} [Fintype ι] (f : ι → ℝ) (N : ℝ) (hN : N = Fintype.card ι) (hN0 : N ≠ 0) :
    (∑ r, f r * f r) * (1 / N) - ((∑ r, f r) * (1 / N)) * ((∑ r, f r) * (1 / N))
      = (∑ r, (f r - (∑ r, f r) * (1 / N)) * (f r - (∑ r, f r) * (1 / N))) * (1 / N) := by
  rw [sum_sq_dev, ← hN]
  field_simp
  ring

/-- A mean of squares is nonnegative. -/
theorem var_nonneg {ι : Type*} [Fintype ι] (f : ι → ℝ) (μ N : ℝ) (hN : 0 < N) :
    0 ≤ (∑ r, (f r - μ) * (f r - μ)) * (1 / N) :=
  mul_nonneg (Finset.sum_nonneg fun r _ => mul_self_nonneg _) (by positivity)

/-! ## The identity on the extended reals, for a column of real numbers -/

/-- For a column of reals and a real divisor N = the number of rows, the clamped "mean of squares minus squared
    mean" is the "mean of squared deviations", both written with the extended reals' division. -/
theorem var_clamp_eq {ι : Type*} [Fintype ι] (f : ι → ℝ) (N : ℝ) (hN : N = Fintype.card ι) (hN0 : 0 < N) :
    max (Ideal.div (∑ r, (f r : EReal) * (f r : EReal)) (N : EReal)
          - Ideal.div (∑ r, (f r : EReal)) (N : EReal) * Ideal.div (∑ r, (f r : EReal)) (N : EReal)) 0
      = Ideal.div (0 + ∑ r, ((f r : EReal) - Ideal.div (0 + ∑ r, (f r : EReal)) (N : EReal))
                          * ((f r : EReal) - Ideal.div (0 + ∑ r, (f r : EReal)) (N : EReal))) (N : EReal) := by
  have hN' : N ≠ 0 := ne_of_gt hN0
  have e1 : (∑ r, (f r : EReal)) = ((∑ r, f r : ℝ) : EReal) := (coe_sum _ _).symm
  have e2 : Ideal.div ((∑ r, f r : ℝ) : EReal) (N : EReal) = (((∑ r, f r) * (1 / N) : ℝ) : EReal) := by
    rw [Ideal.div_coe hN', ← EReal.coe_mul]
  have e3 : (∑ r, (f r : EReal) * (f r : EReal)) = ((∑ r, f r * f r : ℝ) : EReal) := by
    rw [coe_sum]; simp only [EReal.coe_mul]
  have e4 : ∀ μ : ℝ, (∑ r, ((f r : EReal) - (μ : EReal)) * ((f r : EReal) - (μ : EReal)))
      = ((∑ r, (f r - μ) * (f r - μ) : ℝ) : EReal) := fun μ => by
    rw [coe_sum]; simp only [EReal.coe_mul, EReal.coe_sub]
  simp only [zero_add]
  rw [e1, e2, e3, e4, Ideal.div_coe hN', Ideal.div_coe hN', ← EReal.coe_mul, ← EReal.coe_mul, ← EReal.coe_mul,
    ← EReal.coe_sub, var_two_forms f N hN hN']
  exact max_eq_left (EReal.coe_nonneg.2 (var_nonneg f _ N hN0))

end Law

/-! ## The statistics: the kernel's rows are the reference's columns' statistics -/

/-- The kernel's mean row at column k is the reference's column mean. -/
theorem meanRow_colSum_eq (a : SNx32.Idx → EReal) (ha : AllReal a) (k : Fin 32) :
    meanRow (colSum a) (ix2 0 k) = refMean a k := by
  show Ideal.div (∑ r : Fin 150000, a (ix2 r k)) rowsLit = Ideal.div (zeroLit + ∑ r : Fin 150000, a (ix2 r k)) rowsLit
  rw [Law.zeroLit_eq, zero_add]

/-- The kernel's inverse standard deviation at column k is the reference's rsqrt (var + ε). -/
theorem invStd_eq (a : SNx32.Idx → EReal) (ha : AllReal a) (k : Fin 32) :
    invStdRow (colSum a) (colSumSq a) (ix2 0 k) = Ideal.rsqrt (refVar a k + epsLit) := by
  have hcol : ∀ r : Fin 150000, ∃ x : ℝ, a (ix2 r k) = (x : EReal) := fun r => ha (ix2 r k)
  choose f hf using hcol
  have hN : (150000 : ℝ) = Fintype.card (Fin 150000) := by rw [Fintype.card_fin]; norm_num
  have key := Law.var_clamp_eq f 150000 hN (by norm_num)
  show Ideal.rsqrt (max (Ideal.div (∑ r : Fin 150000, a (ix2 r k) * a (ix2 r k)) rowsLit
        - Ideal.div (∑ r : Fin 150000, a (ix2 r k)) rowsLit * Ideal.div (∑ r : Fin 150000, a (ix2 r k)) rowsLit) zeroLit + epsLit)
    = Ideal.rsqrt (Ideal.div (zeroLit + ∑ r : Fin 150000,
          (a (ix2 r k) - Ideal.div (zeroLit + ∑ r : Fin 150000, a (ix2 r k)) rowsLit)
            * (a (ix2 r k) - Ideal.div (zeroLit + ∑ r : Fin 150000, a (ix2 r k)) rowsLit)) rowsLit + epsLit)
  simp only [hf]
  rw [Law.zeroLit_eq, rowsLit_eq, key]

/-! ## THE LAW: the kernel's classifier output is the reference's -/

theorem classify_eq_ref (a : SNx32.Idx → EReal) (ha : AllReal a) (γ β : S32.Idx → EReal) (Wc : S32x6.Idx → EReal) (bc : S6.Idx → EReal) :
    classify a (meanRow (colSum a)) (invStdRow (colSum a) (colSumSq a)) (row32 γ) (row32 β) Wc (row6 bc)
      = refClassify a γ β Wc bc := by
  funext i
  have hm : ∀ k : Fin 32, meanRow (colSum a) (ix2 0 k) = refMean a k := meanRow_colSum_eq a ha
  have hv : ∀ k : Fin 32, invStdRow (colSum a) (colSumSq a) (ix2 0 k) = Ideal.rsqrt (refVar a k + epsLit) :=
    invStd_eq a ha
  unfold classify refClassify
  simp only [hm, hv]
  rfl

/-! ## The first kernel's output is real when its arguments are -/

theorem hidden_allReal (x : SNx22.Idx → EReal) (We : S22x32.Idx → EReal) (be : S1x32.Idx → EReal) (Wg : S32x32.Idx → EReal)
    (hx : AllReal x) (hWe : AllReal We) (hbe : AllReal be) (hWg : AllReal Wg) : AllReal (hidden x We be Wg) := by
  intro i
  show ∃ r : ℝ, (∑ k : Fin 32, max ((∑ j : Fin 22, x (ix2 (i 0) j) * We (ix2 j k)) + be (ix2 0 k)) zeroLit
      * Wg (ix2 k (i 1))) = (r : EReal)
  exact Law.real_sum _ _ (fun k => Law.real_mul (Law.real_max (Law.real_add
    (Law.real_sum _ _ (fun j => Law.real_mul (hx _) (hWe _))) (hbe _)) Law.real_zeroLit) (hWg _))

end Cert.Spec

end
-- ==== Proof.PreFinite.lean ====
/-
  The precondition read back: `finite_inputs` says of each of the nine float arguments that every entry's
  absolute value compares below +∞, all of it folded by `and` into one bit; when that bit is 1 every entry of every
  float argument is a real number. An extended real whose absolute value `max x (−x)` is strictly below `⊤` is
  neither `⊤` nor `⊥`.
-/
import proofs.«176874_j1047972020880_2_alg».proof.Pre_finite_inputs
import proofs.«176874_j1047972020880_2_alg».proof.Proof.Spec
import Idealize.ShloMosaic.Lib.ReduceAll
import Idealize.ShloMosaic.Lib.ValueIdx
import Idealize.ShloMosaic.PureOps.Ideal.Laws

noncomputable section

namespace Cert.PreFinite

open Idealize.ShloMosaic Idealize.ShloMosaic.ValueIdx Cert.Pre_finite_inputs

/-- The f32 word `0x7F800000` denotes `+∞`. -/
theorem ofBits_inf : Ideal.ofBits .f32 0x7F800000#32 = (⊤ : EReal) := by simp [Ideal.ofBits, Ideal.ieee]

/-- An extended real whose absolute value is strictly below `+∞` is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- The scalar shape has one index. -/
instance scalarIdx_subsingleton : Subsingleton S_.Idx := ⟨fun a b => funext fun d => d.elim0⟩

/-- One `jnp.all(|a| < inf)` that is 1: every entry of `a` is a real number. -/
theorem allReal_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ix0 = 1#1) : Cert.Spec.AllReal a := by
  intro i
  have hi := Host.reduce_andi_all _ _ hr hu ix0 e i
  have hi' : Ideal.cmp .olt (max (a i) (-(a i))) (Ideal.ofBits .f32 0x7F800000#32) = 1#1 := hi
  rw [ofBits_inf] at hi'
  exact real_of_abs_lt_top (a i) hi'

/-- The precondition at `Ideal`, all ones, makes every float argument real-valued. -/
theorem allReal_of_pre [Facts] (a0 : FVec Ideal S150000x22 .f32) (a1 : IVec S2x2400000 32) (a2 : FVec Ideal S22x32 .f32) (a3 : FVec Ideal S32 .f32)
    (a4 : FVec Ideal S32x32 .f32) (a5 a6 a7 : FVec Ideal S32 .f32) (a8 : FVec Ideal S32x6 .f32) (a9 : FVec Ideal S6 .f32)
    (h : fn (F := Ideal) a0 a1 a2 a3 a4 a5 a6 a7 a8 a9 = fun _ => 1#1) :
    Cert.Spec.AllReal (S := S150000x22) a0 ∧ Cert.Spec.AllReal (S := S22x32) a2 ∧ Cert.Spec.AllReal (S := S32) a3
      ∧ Cert.Spec.AllReal (S := S32x32) a4 ∧ Cert.Spec.AllReal (S := S32) a5 ∧ Cert.Spec.AllReal (S := S32) a6
      ∧ Cert.Spec.AllReal (S := S32) a7 ∧ Cert.Spec.AllReal (S := S32x6) a8 ∧ Cert.Spec.AllReal (S := S6) a9 := by
  have h0 := congrFun h ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all a0 _ _ _ e0, allReal_of_all a2 _ _ _ e2, allReal_of_all a3 _ _ _ e3, allReal_of_all a4 _ _ _ e4,
    allReal_of_all a5 _ _ _ e5, allReal_of_all a6 _ _ _ e6, allReal_of_all a7 _ _ _ e7, allReal_of_all a8 _ _ _ e8,
    allReal_of_all a9 _ _ _ e9⟩

end Cert.PreFinite

end
-- ==== Proof.RefSide.lean ====
/-
  The reference program's two dense stages, read index by index on the extended reals.

  `hidden_eq`: the first stage is `relu(x · W_emb + b_emb) · W_gcn` — at row `p`, column `q` the sum over the 32
  hidden features `k` of `max (∑ j, x[p,j] · W_emb[j,k] + b_emb[k]) 0 · W_gcn[k,q]`, the bias read as a one-row matrix.

  `out_eq`: the last stage, as a function of the aggregated features `a` (the value of the operation before the
  statistics, kept as one closed term and never opened), is batch normalisation by squared deviations followed by the
  rectifier and the classifier: with `mean[k] = (0 + ∑ r, a[r,k]) / N` and
  `var[k] = (0 + ∑ r, (a[r,k] − mean[k])²) / N`, the entry at row `p`, class `q` is
  `∑ k, max ((a[p,k] − mean[k]) · rsqrt(var[k] + ε) · γ[k] + β[k]) 0 · W_cls[k,q] + b_cls[q]`.

  Both proofs read the stages from the outside in: every broadcast reads its operand at the index with the broadcast
  axis dropped, every elementwise operation is the extended reals' own, a contraction is the sum over its one
  contracted coordinate, and a column reduction is its initial value plus the sum over the rows.
-/
import proofs.«176874_j1047972020880_2_alg».proof.Proof.RefReadP
import proofs.«176874_j1047972020880_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat)

namespace Cert.RefSide
open Cert.ReferenceIdeal Cert.ReferenceIdeal.ReadP
open Idealize.ShloMosaic.ValueIdx

/-! ## The composed index functions of the first stage, at an index given by its coordinates -/

theorem lidx_v5 (p : Fin 150000) (q k : Fin 32) : lidx_main_v5 (ix2 p q) k = ix2 p k :=
  funext fun a => Fin.ext (by match a with | ⟨0, _⟩ => rfl | ⟨1, _⟩ => rfl)
theorem ridx_v5 (p : Fin 150000) (q k : Fin 32) : ridx_main_v5 (ix2 p q) k = ix2 k q :=
  funext fun a => Fin.ext (by match a with | ⟨0, _⟩ => rfl | ⟨1, _⟩ => rfl)
theorem lidx_v0 (p : Fin 150000) (k : Fin 32) (j : Fin 22) : lidx_main_v0 (ix2 p k) j = ix2 p j :=
  funext fun a => Fin.ext (by match a with | ⟨0, _⟩ => rfl | ⟨1, _⟩ => rfl)
theorem ridx_v0 (p : Fin 150000) (k : Fin 32) (j : Fin 22) : ridx_main_v0 (ix2 p k) j = ix2 j k :=
  funext fun a => Fin.ext (by match a with | ⟨0, _⟩ => rfl | ⟨1, _⟩ => rfl)
theorem idx_v2 (p : Fin 150000) (k : Fin 32) : idx_main_v1 (idx_main_v2 (ix2 p k)) = ix1 k :=
  funext fun a => Fin.ext (by match a with | ⟨0, _⟩ => rfl)

/-! ## The first stage

  Entry `(p, q)` of the second contraction is the sum over `k` of the rectified entry `(p, k)` of the first contraction
  plus the bias, times `W_gcn[k, q]`; the bias is broadcast from a vector to one row and from one row to all rows, so
  its entry at `(p, k)` is the vector's at `k`, which is the one-row matrix's at `(0, k)`. -/

/-- the reference's hidden layer is the kernel's -/
theorem hidden_eq (x0 : (⟨S150000x22, .f32⟩ : BufTy).Contents (Elt Ideal)) (x2 : (⟨S22x32, .f32⟩ : BufTy).Contents (Elt Ideal))
    (x3 : (⟨S32, .f32⟩ : BufTy).Contents (Elt Ideal)) (x4 : (⟨S32x32, .f32⟩ : BufTy).Contents (Elt Ideal)) :
    val_main_v5 (F := Ideal) x0 x2 x3 x4 = Cert.Spec.hidden x0 x2 (Cert.Spec.row32 x3) x4 := by
  funext i
  obtain ⟨p, q, rfl⟩ : ∃ (p : Fin 150000) (q : Fin 32), i = ix2 p q := ⟨i 0, i 1, eq_ix2 i⟩
  rw [val_main_v5_apply]
  unfold Cert.Spec.hidden Cert.Spec.row32
  refine Finset.sum_congr rfl fun k _ => ?_
  rw [lidx_v5, ridx_v5, val_main_v4_apply, val_main_v3_apply, val_main_v0_apply, val_main_v2_apply, val_main_v1_apply,
    val_main_call0_v0_apply, val_main_call0_cst_apply, idx_v2]
  simp only [lidx_v0, ridx_v0, Ideal.addf_def, Ideal.maximumf_def, Ideal.ofBits_def]

/-! ## The composed index functions of the last stage -/

theorem idx_v55 (k : Fin 32) (r : Fin 150000) : idx_main_v55 (ix1 k) r = ix2 r k :=
  funext fun a => Fin.ext (by match a with | ⟨0, _⟩ => rfl | ⟨1, _⟩ => rfl)
theorem idx_v62 (k : Fin 32) (r : Fin 150000) : idx_main_v62 (ix1 k) r = ix2 r k :=
  funext fun a => Fin.ext (by match a with | ⟨0, _⟩ => rfl | ⟨1, _⟩ => rfl)
theorem idx_v59 (r : Fin 150000) (k : Fin 32) : idx_main_v58 (idx_main_v59 (ix2 r k)) = ix1 k :=
  funext fun a => Fin.ext (by match a with | ⟨0, _⟩ => rfl)
theorem idx_v66 (r : Fin 150000) (k : Fin 32) : idx_main_v65 (idx_main_v66 (ix2 r k)) = ix1 k :=
  funext fun a => Fin.ext (by match a with | ⟨0, _⟩ => rfl)
theorem idx_v72 (r : Fin 150000) (k : Fin 32) : idx_main_v71 (idx_main_v72 (ix2 r k)) = ix1 k :=
  funext fun a => Fin.ext (by match a with | ⟨0, _⟩ => rfl)
theorem idx_v75 (r : Fin 150000) (k : Fin 32) : idx_main_v74 (idx_main_v75 (ix2 r k)) = ix1 k :=
  funext fun a => Fin.ext (by match a with | ⟨0, _⟩ => rfl)
theorem idx_v78 (r : Fin 150000) (k : Fin 32) : idx_main_v77 (idx_main_v78 (ix2 r k)) = ix1 k :=
  funext fun a => Fin.ext (by match a with | ⟨0, _⟩ => rfl)
theorem idx_v83 (p : Fin 150000) (q : Fin 6) : idx_main_v82 (idx_main_v83 (ix2 p q)) = ix1 q :=
  funext fun a => Fin.ext (by match a with | ⟨0, _⟩ => rfl)
theorem lidx_v81 (p : Fin 150000) (q : Fin 6) (k : Fin 32) : lidx_main_v81 (ix2 p q) k = ix2 p k :=
  funext fun a => Fin.ext (by match a with | ⟨0, _⟩ => rfl | ⟨1, _⟩ => rfl)
theorem ridx_v81 (p : Fin 150000) (q : Fin 6) (k : Fin 32) : ridx_main_v81 (ix2 p q) k = ix2 k q :=
  funext fun a => Fin.ext (by match a with | ⟨0, _⟩ => rfl | ⟨1, _⟩ => rfl)

/-! ## The statistics of the aggregated features

  The aggregated features are the value of one operation of the reference; every lemma below reads it at an index
  and never looks inside it. -/

section stats
variable (x0 : (⟨S150000x22, .f32⟩ : BufTy).Contents (Elt Ideal)) (x1 : (⟨S2x2400000, .i32⟩ : BufTy).Contents (Elt Ideal))
  (x2 : (⟨S22x32, .f32⟩ : BufTy).Contents (Elt Ideal)) (x3 : (⟨S32, .f32⟩ : BufTy).Contents (Elt Ideal))
  (x4 : (⟨S32x32, .f32⟩ : BufTy).Contents (Elt Ideal)) (x5 x6 x7 : (⟨S32, .f32⟩ : BufTy).Contents (Elt Ideal))

/-- The mean vector at `k`: the column's sum from `0.0`, over the number of rows. -/
theorem mean_at (k : Fin 32) :
    val_main_v57 (F := Ideal) x0 x1 x2 x3 x4 x5 (ix1 k)
      = Cert.Spec.refMean (val_main_v54 (F := Ideal) x0 x1 x2 x3 x4 x5) k := by
  rw [val_main_v57_apply, val_main_v55_apply, val_main_v56_apply, val_main_cst_11_apply, val_main_cst_12_apply]
  unfold Cert.Spec.refMean
  simp only [idx_v55, Ideal.hostDivf_def, Ideal.ofBits_def]

/-- The squared deviation from the mean at row `r`, column `k`. The mean reaches that entry through two broadcasts
    (vector to one row, one row to all rows). -/
theorem dev_at (r : Fin 150000) (k : Fin 32) :
    val_main_v61 (F := Ideal) x0 x1 x2 x3 x4 x5 (ix2 r k)
      = (val_main_v54 (F := Ideal) x0 x1 x2 x3 x4 x5 (ix2 r k)
            - Cert.Spec.refMean (val_main_v54 (F := Ideal) x0 x1 x2 x3 x4 x5) k)
          * (val_main_v54 (F := Ideal) x0 x1 x2 x3 x4 x5 (ix2 r k)
            - Cert.Spec.refMean (val_main_v54 (F := Ideal) x0 x1 x2 x3 x4 x5) k) := by
  rw [val_main_v61_apply, val_main_v60_apply, val_main_v59_apply, val_main_v58_apply, idx_v59, mean_at]
  simp only [Ideal.mulf_def, Ideal.subf_def]

/-- The variance vector at `k`: the column's sum of squared deviations from the mean, from `0.0`, over the number of
    rows. The mean reaches row `r`, column `k` through two broadcasts (vector to one row, one row to all rows). -/
theorem var_at (k : Fin 32) :
    val_main_v64 (F := Ideal) x0 x1 x2 x3 x4 x5 (ix1 k)
      = Cert.Spec.refVar (val_main_v54 (F := Ideal) x0 x1 x2 x3 x4 x5) k := by
  rw [val_main_v64_apply, val_main_v62_apply, val_main_v63_apply, val_main_cst_13_apply, val_main_cst_14_apply]
  unfold Cert.Spec.refVar
  simp only [idx_v62, dev_at, Ideal.hostDivf_def, Ideal.ofBits_def]

/-- The inverse standard deviation at `k`. -/
theorem invstd_at (k : Fin 32) :
    val_main_v70 (F := Ideal) x0 x1 x2 x3 x4 x5 (ix1 k)
      = Ideal.rsqrt (Cert.Spec.refVar (val_main_v54 (F := Ideal) x0 x1 x2 x3 x4 x5) k + Cert.Spec.epsLit) := by
  rw [val_main_v70_apply, val_main_v69_apply, val_main_v68_apply, val_main_cst_15_apply, var_at]
  simp only [Ideal.hostUnary_rsqrt_def, Ideal.addf_def, Ideal.ofBits_def]

/-- The rectified, normalised, scaled and shifted entry at row `p`, feature `k`. -/
theorem act_at (p : Fin 150000) (k : Fin 32) :
    val_main_v80 (F := Ideal) x0 x1 x2 x3 x4 x5 x6 x7 (ix2 p k)
      = max ((((val_main_v54 (F := Ideal) x0 x1 x2 x3 x4 x5 (ix2 p k)
            - Cert.Spec.refMean (val_main_v54 (F := Ideal) x0 x1 x2 x3 x4 x5) k)
          * Ideal.rsqrt (Cert.Spec.refVar (val_main_v54 (F := Ideal) x0 x1 x2 x3 x4 x5) k + Cert.Spec.epsLit))
          * x6 (ix1 k)) + x7 (ix1 k)) Cert.Spec.zeroLit := by
  rw [val_main_v80_apply, val_main_v79_apply, val_main_v76_apply, val_main_v73_apply, val_main_v67_apply,
    val_main_v66_apply, val_main_v65_apply, idx_v66, mean_at, val_main_v72_apply, val_main_v71_apply, idx_v72, invstd_at,
    val_main_v75_apply, val_main_v74_apply, idx_v75, val_main_v78_apply, val_main_v77_apply, idx_v78,
    val_main_call3_v0_apply, val_main_call3_cst_apply]
  simp only [Ideal.maximumf_def, Ideal.addf_def, Ideal.mulf_def, Ideal.subf_def, Ideal.ofBits_def]

end stats

/-! ## The last stage -/

theorem out_eq (x0 : (⟨S150000x22, .f32⟩ : BufTy).Contents (Elt Ideal)) (x1 : (⟨S2x2400000, .i32⟩ : BufTy).Contents (Elt Ideal))
    (x2 : (⟨S22x32, .f32⟩ : BufTy).Contents (Elt Ideal)) (x3 : (⟨S32, .f32⟩ : BufTy).Contents (Elt Ideal))
    (x4 : (⟨S32x32, .f32⟩ : BufTy).Contents (Elt Ideal)) (x5 x6 x7 : (⟨S32, .f32⟩ : BufTy).Contents (Elt Ideal))
    (x8 : (⟨S32x6, .f32⟩ : BufTy).Contents (Elt Ideal)) (x9 : (⟨S6, .f32⟩ : BufTy).Contents (Elt Ideal)) :
    val_main_v84 (F := Ideal) x0 x1 x2 x3 x4 x5 x6 x7 x8 x9
      = Cert.Spec.refClassify (val_main_v54 (F := Ideal) x0 x1 x2 x3 x4 x5) x6 x7 x8 x9 := by
  funext i
  obtain ⟨p, q, rfl⟩ : ∃ (p : Fin 150000) (q : Fin 6), i = ix2 p q := ⟨i 0, i 1, eq_ix2 i⟩
  rw [val_main_v84_apply, val_main_v81_apply, val_main_v83_apply, val_main_v82_apply, idx_v83]
  unfold Cert.Spec.refClassify
  simp only [lidx_v81, ridx_v81, act_at, Ideal.addf_def]

end Cert.RefSide

end
-- ==== Proof.RefFinite.lean ====
/-
  The reference's message passing keeps real numbers real.

  Between the hidden layer and the batch statistics the reference program normalises the graph and passes
  messages along its edges: it counts every node's incoming edges (a scatter of ones over zeros), replaces a
  zero count by one, takes the inverse square root of the count (zero where the count was zero), gives every
  edge the product of the two factors of its end points, multiplies the source node's hidden row by that
  weight, sums the weighted rows into their destination nodes (a scatter over zeros) and adds the bias.

  This module proves that every entry of the result is a real number, never an infinity, as soon as every
  entry of the hidden layer and of the bias is.  The argument is a walk down the stages.  An entry of a gather
  IS an entry of its operand, so a gather of reals holds reals, whatever the indices say.  An entry of an
  accumulating scatter is an operand entry plus a FINITE sum of update entries, so it is real when they all
  are, again whatever the indices say.  Sums and products of two reals are real, and so are the literals 0
  and 1.  The one stage that could leave the reals is the inverse square root, which is infinite at 0 and
  undefined below it: but its argument is the count where the comparison "count > 0" holds and the literal 1
  elsewhere, a positive real in both cases, and the inverse square root of a positive real is the real
  number 1/√r.
-/
import proofs.«176874_j1047972020880_2_alg».proof.Proof.RefReadP
import proofs.«176874_j1047972020880_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem

namespace Cert.RefFinite
open Cert.ReferenceIdeal Cert.ReferenceIdeal.ReadP

/-! ## Real numbers among the extended reals are closed under what the stages do -/

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of reals is real: by induction on the set summed over. -/
theorem real_sum {ι : Type} (s : Finset ι) (f : ι → EReal) (h : ∀ j, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih => rw [Finset.sum_insert ha]; exact real_add (h a) ih

/-- The f32 word of 1.0 denotes the number 1. -/
theorem ofBits_one : Ideal.ofBits .f32 0x3F800000#32 = 1 := by
  simp [Ideal.ofBits, Ideal.ieee, -EReal.coe_mul]; norm_num

/-- The literal 0.0 is real. -/
theorem real_zeroLit : ∃ r : ℝ, Ideal.ofBits .f32 0x00000000#32 = (r : EReal) :=
  ⟨0, by rw [Ideal.ofBits_zero_f32, EReal.coe_zero]⟩

/-- The literal 1.0 is real. -/
theorem real_oneLit : ∃ r : ℝ, Ideal.ofBits .f32 0x3F800000#32 = (r : EReal) :=
  ⟨1, by rw [ofBits_one, EReal.coe_one]⟩

/-- The inverse square root of a positive real is the real number 1/√r. -/
theorem real_rsqrt_of_pos {r : ℝ} (hr : 0 < r) : ∃ t : ℝ, Ideal.rsqrt (r : EReal) = (t : EReal) := by
  refine ⟨(Real.sqrt r)⁻¹, ?_⟩
  rw [Ideal.rsqrt_coe, if_neg (not_lt.mpr hr.le), if_neg hr.ne']

/-- An entry of a gather is an entry of its operand: a gather of reals holds reals. -/
theorem real_gather {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-- An entry of an accumulating scatter is an operand entry plus a finite sum of update entries: real when the
    operand and the updates are. -/
theorem real_scatterAdd {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal))
    (i : s.Idx) : ∃ r : ℝ, Host.scatterAdd d x idx upd i = (r : EReal) := by
  unfold Host.scatterAdd
  rw [Ideal.hostScatterAdd_def]
  unfold Ideal.hostScatterAdd
  exact real_add (hx i) (real_sum _ _ hu)

/-- The comparison "x > y" on the extended reals returns the bit 1 only when y < x. -/
theorem lt_of_cmp_ogt {x y : EReal} (h : Ideal.cmp .ogt x y = 1#1) : y < x := by
  by_contra hn
  have h0 : Ideal.cmp .ogt x y = 0#1 := by simp [Ideal.cmp, hn]
  rw [h0] at h
  exact absurd h (by decide)

/-! ## The stages, from the edge counts down to the aggregated features -/

/-- The updates of the counting scatter are the literal 1. -/
theorem ones_real (j : S2550000.Idx) : ∃ r : ℝ, val_main_v13 (F := Ideal) j = (r : EReal) := by
  rw [val_main_v13_apply, val_main_cst_apply, Ideal.ofBits_def]
  exact real_oneLit

/-- The operand of the counting scatter is the literal 0. -/
theorem zeros_real (i : S150000.Idx) : ∃ r : ℝ, val_main_v14 (F := Ideal) i = (r : EReal) := by
  rw [val_main_v14_apply, val_main_cst_0_apply, Ideal.ofBits_def]
  exact real_zeroLit

/-- Every node's count of incoming edges is a real number: zero plus a finite sum of ones. -/
theorem deg_real (x1 : (⟨S2x2400000, .i32⟩ : BufTy).Contents (Elt Ideal)) (i : S150000.Idx) :
    ∃ r : ℝ, val_main_v16 (F := Ideal) x1 i = (r : EReal) := by
  unfold val_main_v16
  exact real_scatterAdd _ _ _ _ zeros_real ones_real i

/-- The count with zero replaced by one is a POSITIVE real: where the comparison "count > 0" holds it is the
    count, elsewhere it is the literal 1. -/
theorem deg1_pos (x1 : (⟨S2x2400000, .i32⟩ : BufTy).Contents (Elt Ideal)) (i : S150000.Idx) :
    ∃ r : ℝ, 0 < r ∧ val_main_v21 (F := Ideal) x1 i = (r : EReal) := by
  rw [val_main_v21_apply]
  obtain ⟨r, hr⟩ := deg_real x1 i
  by_cases hc : val_main_v20 (F := Ideal) x1 i = 1#1
  · rw [hc, ValueIdx.select_one]
    refine ⟨r, ?_, hr⟩
    rw [val_main_v20_apply, Ideal.cmpf_def, val_main_v19_apply, val_main_cst_2_apply, Ideal.ofBits_def, Ideal.ofBits_zero_f32, hr] at hc
    exact EReal.coe_pos.mp (lt_of_cmp_ogt hc)
  · rw [ValueIdx.eq_zero_of_ne_one hc, ValueIdx.select_zero, val_main_call1_v1_apply, val_main_call1_v0_apply,
      val_main_cst_3_apply, Ideal.ofBits_def, ofBits_one]
    exact ⟨1, one_pos, EReal.coe_one.symm⟩

/-- The inverse square root of that positive real is real. -/
theorem rsqrtDeg_real (x1 : (⟨S2x2400000, .i32⟩ : BufTy).Contents (Elt Ideal)) (i : S150000.Idx) :
    ∃ r : ℝ, val_main_v22 (F := Ideal) x1 i = (r : EReal) := by
  obtain ⟨r, hr, h⟩ := deg1_pos x1 i
  rw [val_main_v22_apply, Ideal.hostUnary_rsqrt_def, h]
  exact real_rsqrt_of_pos hr

/-- A node's normalising factor: the inverse square root where the count is positive, the literal 0 elsewhere. -/
theorem factor_real (x1 : (⟨S2x2400000, .i32⟩ : BufTy).Contents (Elt Ideal)) (i : S150000.Idx) :
    ∃ r : ℝ, val_main_v23 (F := Ideal) x1 i = (r : EReal) := by
  rw [val_main_v23_apply]
  by_cases hc : val_main_v18 (F := Ideal) x1 i = 1#1
  · rw [hc, ValueIdx.select_one]
    exact rsqrtDeg_real x1 i
  · rw [ValueIdx.eq_zero_of_ne_one hc, ValueIdx.select_zero, val_main_call2_v1_apply, val_main_call2_v0_apply,
      val_main_cst_4_apply, Ideal.ofBits_def]
    exact real_zeroLit

/-- An edge's weight: the product of the factors of its two end points, each picked by a gather. -/
theorem weight_real (x1 : (⟨S2x2400000, .i32⟩ : BufTy).Contents (Elt Ideal)) (j : S2550000.Idx) :
    ∃ r : ℝ, val_main_v38 (F := Ideal) x1 j = (r : EReal) := by
  rw [val_main_v38_apply, Ideal.mulf_def]
  refine real_mul ?_ ?_
  · unfold val_main_v30
    exact real_gather _ _ _ (factor_real x1) j
  · unfold val_main_v37
    exact real_gather _ _ _ (factor_real x1) j

/-- An edge's message: the source node's hidden row (a gather of the hidden layer) times the edge's weight
    (broadcast along the row). -/
theorem message_real (x0 : (⟨S150000x22, .f32⟩ : BufTy).Contents (Elt Ideal)) (x1 : (⟨S2x2400000, .i32⟩ : BufTy).Contents (Elt Ideal))
    (x2 : (⟨S22x32, .f32⟩ : BufTy).Contents (Elt Ideal)) (x3 : (⟨S32, .f32⟩ : BufTy).Contents (Elt Ideal))
    (x4 : (⟨S32x32, .f32⟩ : BufTy).Contents (Elt Ideal))
    (h : Cert.Spec.AllReal (S := Cert.Spec.SNx32) (val_main_v5 (F := Ideal) x0 x2 x3 x4)) (j : S2550000x32.Idx) :
    ∃ r : ℝ, val_main_v48 (F := Ideal) x0 x1 x2 x3 x4 j = (r : EReal) := by
  rw [val_main_v48_apply, Ideal.mulf_def]
  refine real_mul ?_ ?_
  · unfold val_main_v45
    exact real_gather _ _ _ h j
  · rw [val_main_v47_apply, val_main_v46_apply]
    exact weight_real x1 _

/-- The operand of the aggregating scatter is the literal 0. -/
theorem zeros2_real (i : S150000x32.Idx) : ∃ r : ℝ, val_main_v49 (F := Ideal) i = (r : EReal) := by
  rw [val_main_v49_apply, val_main_cst_10_apply, Ideal.ofBits_def]
  exact real_zeroLit

/-- Every entry of the aggregated feature matrix is a real number when the hidden features and the bias are: it is
    zero plus a finite sum of messages, plus a bias entry. -/
theorem agg_allReal (x0 : (⟨S150000x22, .f32⟩ : BufTy).Contents (Elt Ideal)) (x1 : (⟨S2x2400000, .i32⟩ : BufTy).Contents (Elt Ideal))
    (x2 : (⟨S22x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (h : Cert.Spec.AllReal (S := Cert.Spec.SNx32) (val_main_v5 (F := Ideal) x0 x2 x3 x4)) (h5 : Cert.Spec.AllReal (S := Cert.Spec.S32) x5) :
    Cert.Spec.AllReal (S := Cert.Spec.SNx32) (val_main_v54 (F := Ideal) x0 x1 x2 x3 x4 x5) := by
  intro i
  rw [val_main_v54_apply, Ideal.addf_def]
  refine real_add ?_ ?_
  · unfold val_main_v51
    exact real_scatterAdd _ _ _ _ zeros2_real (message_real x0 x1 x2 x3 x4 h) i
  · rw [val_main_v53_apply, val_main_v52_apply]
    exact h5 _

end Cert.RefFinite

end
-- ==== Proof.Bridge.lean ====
/-
  Between its first and its second kernel the program normalises the graph and passes messages along its edges, in
  sixty-six host operations laid out in five stretches; the reference does the same between its hidden layer and its
  batch statistics.  This module proves that the two chains are one: started from buffers that hold the reference's
  hidden features, the edge array and the bias, the program's chain leaves in its aggregated-feature buffer exactly
  the reference's aggregated features.

  Nothing is computed here; the proof is a reading.  Each host operation's result, at its own buffer, is its function
  of its operands' contents, and every other buffer keeps what it had; read back from the last operation to the
  first, the contents of one buffer after a stretch are a composition of array operations applied to the contents the
  stretch started from.  Stretch by stretch that composition is the reference's, operation for operation:

    * the first stretch builds the source and destination lists (a row of the edge array followed by every node once,
      the self loops), counts every node's incoming edges (ones scattered over zeros along the destination list),
      compares the count with zero twice, and sets the literal 1.0 aside; it leaves the hidden features and the bias alone;
    * the three middle stretches replace a zero count by one, take the inverse square root, and put zero back where the
      count was zero: the normalising factor; they leave the two lists, the hidden features and the bias alone;
    * the last stretch wraps the indices of both lists (an index below zero gets the number of nodes added), gathers
      the factors of an edge's two ends and multiplies them, gathers the source's hidden row and scales it by that
      weight, scatter-adds the scaled rows into their destinations over zeros, and adds the bias.

  The dimension records of the gathers and scatters, the shapes and the broadcast and reshape facts are the same in
  the two programs, so each comparison closes by unfolding the reference's stages.  Every comparison is made between
  terms over the SAME named pieces (the lists, the factor, the hidden features stay folded), so that no stage is ever
  opened further than its own operation.
-/
import proofs.«176874_j1047972020880_2_alg».proof.Proof.Gen.KernelIdeal.Frame
import proofs.«176874_j1047972020880_2_alg».proof.Proof.RefReadP
import proofs.«176874_j1047972020880_2_alg».proof.Proof.Spec
import Idealize.ShloMosaic.Lib.Pipeline.Value
import Idealize.ShloMosaic.Lib.StableHlo.Run
import Idealize.ShloMosaic.Lib.ValueLayout

set_option maxRecDepth 16384

noncomputable section

namespace Cert.Bridge

open Idealize.ShloMosaic Idealize.ShloMosaic.TcCoe Idealize.ShloMosaic.StableHlo Idealize.SL.Sem
open Cert.KernelIdeal Cert.KernelIdeal.Gen

/-- Each host operation's result at its own buffer is its function of its operands' contents, and at any other buffer
    what was there: these equations applied one rewrite at a time, which also reaches the operands of a concatenate
    (they sit inside pairs of a shape and an array, where a simplifier pass does not enter). -/
local macro "result_rw" : tactic => `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

variable (V : Valuation τ sig (Elt Ideal))

/-! ## The first stretch: the two edge lists, the degree and its two comparisons with zero -/

set_option maxHeartbeats 1000000 in
/-- The source list: the first row of the edge array followed by every node once (the self loops). -/
theorem src_eq (x1 : (⟨Cert.ReferenceIdeal.S2x2400000, .i32⟩ : BufTy).Contents (Elt Ideal)) (he : V (Proc.devRef .tc main_arg1) = x1) :
    StableHlo.after (hostOps1 (F := Ideal)) V (Proc.devRef .tc main_v7) = Cert.ReferenceIdeal.ReadP.val_main_v9 (F := Ideal) x1 := by
  subst he
  after_results_simp
  result_rw
  rfl

set_option maxHeartbeats 1000000 in
/-- The destination list: the second row of the edge array followed by every node once. -/
theorem dst_eq (x1 : (⟨Cert.ReferenceIdeal.S2x2400000, .i32⟩ : BufTy).Contents (Elt Ideal)) (he : V (Proc.devRef .tc main_arg1) = x1) :
    StableHlo.after (hostOps1 (F := Ideal)) V (Proc.devRef .tc main_v8) = Cert.ReferenceIdeal.ReadP.val_main_v12 (F := Ideal) x1 := by
  subst he
  after_results_simp
  result_rw
  rfl

set_option maxHeartbeats 1000000 in
/-- The degree: ones scattered over zeros along the destination list. -/
theorem deg_eq (x1 : (⟨Cert.ReferenceIdeal.S2x2400000, .i32⟩ : BufTy).Contents (Elt Ideal)) (he : V (Proc.devRef .tc main_arg1) = x1) :
    StableHlo.after (hostOps1 (F := Ideal)) V (Proc.devRef .tc main_v12) = Cert.ReferenceIdeal.ReadP.val_main_v16 (F := Ideal) x1 := by
  subst he
  after_results_simp
  result_rw
  rfl

set_option maxHeartbeats 1000000 in
/-- The comparison "degree > 0" that guards the normalising factor. -/
theorem degPos_eq (x1 : (⟨Cert.ReferenceIdeal.S2x2400000, .i32⟩ : BufTy).Contents (Elt Ideal)) (he : V (Proc.devRef .tc main_arg1) = x1) :
    StableHlo.after (hostOps1 (F := Ideal)) V (Proc.devRef .tc main_v14) = Cert.ReferenceIdeal.ReadP.val_main_v18 (F := Ideal) x1 := by
  subst he
  after_results_simp
  result_rw
  rfl

set_option maxHeartbeats 1000000 in
/-- The comparison "degree > 0" that guards the argument of the inverse square root. -/
theorem degPos'_eq (x1 : (⟨Cert.ReferenceIdeal.S2x2400000, .i32⟩ : BufTy).Contents (Elt Ideal)) (he : V (Proc.devRef .tc main_arg1) = x1) :
    StableHlo.after (hostOps1 (F := Ideal)) V (Proc.devRef .tc main_v16) = Cert.ReferenceIdeal.ReadP.val_main_v20 (F := Ideal) x1 := by
  subst he
  after_results_simp
  result_rw
  rfl

set_option maxHeartbeats 1000000 in
/-- The literal 1.0 that replaces a zero degree. -/
theorem one_eq :
    StableHlo.after (hostOps1 (F := Ideal)) V (Proc.devRef .tc main_cst_3) = Cert.ReferenceIdeal.ReadP.val_main_cst_3 (F := Ideal) := by
  after_results_simp
  result_rw
  rfl

/-- The first stretch leaves the hidden features where they were. -/
theorem first_keeps_hidden :
    StableHlo.after (hostOps1 (F := Ideal)) V (Proc.devRef .tc main_v1) = V (Proc.devRef .tc main_v1) := by
  after_results_simp

/-- The first stretch leaves the bias where it was. -/
theorem first_keeps_bias :
    StableHlo.after (hostOps1 (F := Ideal)) V (Proc.devRef .tc main_arg5) = V (Proc.devRef .tc main_arg5) := by
  after_results_simp

/-! ## The three middle stretches: a zero degree replaced by one, the inverse square root, zero where the degree was zero -/

/-- The normalising factor as a function of the degree d, its two comparisons with zero p and p', and the literal
    1.0: the inverse square root of "d where p' holds, 1.0 elsewhere", kept where p holds and replaced by 0.0 elsewhere. -/
def factorFn (p p' : (⟨S150000, .i1⟩ : BufTy).Contents (Elt Ideal)) (d : (⟨S150000, .f32⟩ : BufTy).Contents (Elt Ideal))
    (one : (⟨S_, .f32⟩ : BufTy).Contents (Elt Ideal)) : (⟨S150000, .f32⟩ : BufTy).Contents (Elt Ideal) :=
  select (s := S150000) p
    (Host.rsqrt (F := Ideal) (s := S150000) (φ := .f32)
      (select (s := S150000) p' d
        ((broadcastInDim S150000 ![] bcast_S_S150000 : (⟨S_, .f32⟩ : BufTy).Contents (Elt Ideal) → (⟨S150000, .f32⟩ : BufTy).Contents (Elt Ideal)) (id one))))
    ((broadcastInDim S150000 ![] bcast_S_S150000 : (⟨S_, .f32⟩ : BufTy).Contents (Elt Ideal) → (⟨S150000, .f32⟩ : BufTy).Contents (Elt Ideal))
      (id (constant (F := Ideal) S_ .f32 0x00000000#32)))

set_option maxHeartbeats 400000 in
/-- What the middle stretches leave in the factor's buffer, as that function of what the first stretch left. (Stated
    over the buffers' contents as they are, before anything is known of them: the values these stretches pass from one
    typed reference to the next are carried along equations between buffer types that hold by computation.) -/
theorem factor_of :
    StableHlo.after (hostOps1_3 (F := Ideal)) (StableHlo.after (hostOps1_2 (F := Ideal)) (StableHlo.after (hostOps1_1 (F := Ideal)) V)) (Proc.devRef .tc main_v19)
      = factorFn (V (Proc.devRef .tc main_v14)) (V (Proc.devRef .tc main_v16)) (V (Proc.devRef .tc main_v12)) (V (Proc.devRef .tc main_cst_3)) := by
  after_results_simp
  rfl

set_option maxHeartbeats 400000 in
/-- A node's normalising factor is the reference's, once the degree, its two comparisons and the literal 1.0 are. -/
theorem factor_eq (x1 : (⟨Cert.ReferenceIdeal.S2x2400000, .i32⟩ : BufTy).Contents (Elt Ideal))
    (h12 : V (Proc.devRef .tc main_v12) = Cert.ReferenceIdeal.ReadP.val_main_v16 (F := Ideal) x1)
    (h14 : V (Proc.devRef .tc main_v14) = Cert.ReferenceIdeal.ReadP.val_main_v18 (F := Ideal) x1)
    (h16 : V (Proc.devRef .tc main_v16) = Cert.ReferenceIdeal.ReadP.val_main_v20 (F := Ideal) x1)
    (hc : V (Proc.devRef .tc main_cst_3) = Cert.ReferenceIdeal.ReadP.val_main_cst_3 (F := Ideal)) :
    StableHlo.after (hostOps1_3 (F := Ideal)) (StableHlo.after (hostOps1_2 (F := Ideal)) (StableHlo.after (hostOps1_1 (F := Ideal)) V)) (Proc.devRef .tc main_v19) = Cert.ReferenceIdeal.ReadP.val_main_v23 (F := Ideal) x1 := by
  rw [factor_of, h12, h14, h16, hc]
  unfold factorFn Cert.ReferenceIdeal.ReadP.val_main_v23 Cert.ReferenceIdeal.ReadP.val_main_call2_v1 Cert.ReferenceIdeal.ReadP.val_main_call2_v0 Cert.ReferenceIdeal.ReadP.val_main_cst_4 Cert.ReferenceIdeal.ReadP.val_main_v22 Cert.ReferenceIdeal.ReadP.val_main_v21 Cert.ReferenceIdeal.ReadP.val_main_call1_v1 Cert.ReferenceIdeal.ReadP.val_main_call1_v0
  rfl

/-- The middle stretches leave the source list, the destination list, the hidden features and the bias where they were. -/
theorem mid_keeps_src : StableHlo.after (hostOps1_3 (F := Ideal)) (StableHlo.after (hostOps1_2 (F := Ideal)) (StableHlo.after (hostOps1_1 (F := Ideal)) V)) (Proc.devRef .tc main_v7) = V (Proc.devRef .tc main_v7) := by
  after_results_simp
theorem mid_keeps_dst : StableHlo.after (hostOps1_3 (F := Ideal)) (StableHlo.after (hostOps1_2 (F := Ideal)) (StableHlo.after (hostOps1_1 (F := Ideal)) V)) (Proc.devRef .tc main_v8) = V (Proc.devRef .tc main_v8) := by
  after_results_simp
theorem mid_keeps_hidden : StableHlo.after (hostOps1_3 (F := Ideal)) (StableHlo.after (hostOps1_2 (F := Ideal)) (StableHlo.after (hostOps1_1 (F := Ideal)) V)) (Proc.devRef .tc main_v1) = V (Proc.devRef .tc main_v1) := by
  after_results_simp
theorem mid_keeps_bias : StableHlo.after (hostOps1_3 (F := Ideal)) (StableHlo.after (hostOps1_2 (F := Ideal)) (StableHlo.after (hostOps1_1 (F := Ideal)) V)) (Proc.devRef .tc main_arg5) = V (Proc.devRef .tc main_arg5) := by
  after_results_simp

/-! ## The last stretch: index wraps, gathers, the weighted messages, their scatter-add and the bias -/

set_option maxHeartbeats 2000000 in
/-- The aggregated features, from the two edge lists, the normalising factors, the hidden features and the bias as
    the earlier stretches left them: operation for operation the reference's chain. -/
theorem agg_of (x0 : (⟨Cert.ReferenceIdeal.S150000x22, .f32⟩ : BufTy).Contents (Elt Ideal)) (x1 : (⟨Cert.ReferenceIdeal.S2x2400000, .i32⟩ : BufTy).Contents (Elt Ideal))
    (x2 : (⟨Cert.ReferenceIdeal.S22x32, .f32⟩ : BufTy).Contents (Elt Ideal)) (x3 : (⟨Cert.ReferenceIdeal.S32, .f32⟩ : BufTy).Contents (Elt Ideal))
    (x4 : (⟨Cert.ReferenceIdeal.S32x32, .f32⟩ : BufTy).Contents (Elt Ideal)) (x5 : (⟨Cert.ReferenceIdeal.S32, .f32⟩ : BufTy).Contents (Elt Ideal))
    (h7 : V (Proc.devRef .tc main_v7) = Cert.ReferenceIdeal.ReadP.val_main_v9 (F := Ideal) x1)
    (h8 : V (Proc.devRef .tc main_v8) = Cert.ReferenceIdeal.ReadP.val_main_v12 (F := Ideal) x1)
    (h19 : V (Proc.devRef .tc main_v19) = Cert.ReferenceIdeal.ReadP.val_main_v23 (F := Ideal) x1)
    (h1 : V (Proc.devRef .tc main_v1) = Cert.ReferenceIdeal.ReadP.val_main_v5 (F := Ideal) x0 x2 x3 x4)
    (h5 : V (Proc.devRef .tc main_arg5) = x5) :
    StableHlo.after (hostOps1_4 (F := Ideal)) V (Proc.devRef .tc main_v50) = Cert.ReferenceIdeal.ReadP.val_main_v54 (F := Ideal) x0 x1 x2 x3 x4 x5 := by
  after_results_simp
  rw [h7, h8, h19, h1, h5]
  unfold Cert.ReferenceIdeal.ReadP.val_main_v54 Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_v49 Cert.ReferenceIdeal.ReadP.val_main_v48 Cert.ReferenceIdeal.ReadP.val_main_v47 Cert.ReferenceIdeal.ReadP.val_main_v46 Cert.ReferenceIdeal.ReadP.val_main_v45 Cert.ReferenceIdeal.ReadP.val_main_v44 Cert.ReferenceIdeal.ReadP.val_main_v43 Cert.ReferenceIdeal.ReadP.val_main_v42 Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_cst_10 Cert.ReferenceIdeal.ReadP.val_main_c_9 Cert.ReferenceIdeal.ReadP.val_main_c_8 Cert.ReferenceIdeal.ReadP.val_main_c_7 Cert.ReferenceIdeal.ReadP.val_main_c_6 Cert.ReferenceIdeal.ReadP.val_main_c_5 Cert.ReferenceIdeal.ReadP.val_main_c
  rfl

/-! ## The five stretches together -/

/-- The host operations between the first and the second pallas_call, folded over contents `W` whose hidden-feature
    buffer holds the reference's hidden features, leave in the aggregated-feature buffer the reference's aggregated
    features: the two programs apply the same gather / scale / scatter-add chain. -/
theorem agg_eq (W : Valuation τ sig (Elt Ideal))
    (x0 : (⟨Cert.ReferenceIdeal.S150000x22, .f32⟩ : BufTy).Contents (Elt Ideal)) (x1 : (⟨Cert.ReferenceIdeal.S2x2400000, .i32⟩ : BufTy).Contents (Elt Ideal))
    (x2 : (⟨Cert.ReferenceIdeal.S22x32, .f32⟩ : BufTy).Contents (Elt Ideal)) (x3 : (⟨Cert.ReferenceIdeal.S32, .f32⟩ : BufTy).Contents (Elt Ideal))
    (x4 : (⟨Cert.ReferenceIdeal.S32x32, .f32⟩ : BufTy).Contents (Elt Ideal)) (x5 : (⟨Cert.ReferenceIdeal.S32, .f32⟩ : BufTy).Contents (Elt Ideal))
    (h1 : W (Proc.devRef .tc main_v1) = Cert.ReferenceIdeal.ReadP.val_main_v5 (F := Ideal) x0 x2 x3 x4)
    (he : W (Proc.devRef .tc main_arg1) = x1) (hb : W (Proc.devRef .tc main_arg5) = x5) :
    StableHlo.after (hostOps1_4 (F := Ideal)) (StableHlo.after (hostOps1_3 (F := Ideal)) (StableHlo.after (hostOps1_2 (F := Ideal))
      (StableHlo.after (hostOps1_1 (F := Ideal)) (StableHlo.after (hostOps1 (F := Ideal)) W)))) (Proc.devRef .tc main_v50)
    = Cert.ReferenceIdeal.ReadP.val_main_v54 (F := Ideal) x0 x1 x2 x3 x4 x5 := by
  refine agg_of _ x0 x1 x2 x3 x4 x5 ?_ ?_ ?_ ?_ ?_
  · rw [mid_keeps_src]; exact src_eq W x1 he
  · rw [mid_keeps_dst]; exact dst_eq W x1 he
  · exact factor_eq _ x1 (deg_eq W x1 he) (degPos_eq W x1 he) (degPos'_eq W x1 he) (one_eq W)
  · rw [mid_keeps_hidden, first_keeps_hidden, h1]
  · rw [mid_keeps_bias, first_keeps_bias, hb]

end Cert.Bridge

end
-- ==== Proof.KernelRun.lean ====
/-
  What the idealized kernel program leaves in memory, read off its run.

  The program is three pallas_calls among stretches of host operations. Its run, segment by segment, threads ONE
  family of buffer contents from the launch memory to the return: after a host stretch every buffer holds the
  stretch's operations folded over the contents before it; after a pallas_call its arrays hold what the pipeline's
  write-backs leave and every other buffer what it held. `run_held` states that every weakly fair execution
  terminates, faults nowhere, and ends with EVERY unscoped buffer — the result among them — at the last member of
  that family; the rest of this module reads the result's entry of the family back, one segment at a time, to one
  composition of the three kernels' whole-array functions (Spec.lean) and the host operations between them.
-/
import proofs.«176874_j1047972020880_2_alg».proof.Proof.Gen.KernelIdeal.Frame
import proofs.«176874_j1047972020880_2_alg».proof.Proof.Spec
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with every unscoped buffer's final contents named -/

set_option backward.isDefEq.respectTransparency.types false in
/-- Every weakly fair execution of @main from `m` terminates without a fault, and in its final state every unscoped
    buffer of every core holds the contents the segments' fold ends at (`W10`): the launch deals each core its
    buffers at `m` and its generator register; the ten segments chain, each entered at the contents the one before
    leaves; the last thread state, read against the final physical state, gives the equation buffer by buffer. Any
    postcondition that follows from those equations holds of the run. -/
theorem run_held {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    -- @main is the segments' run
    (hmain := fun c Q => by rw [main_run m ρ c])
    -- each pipeline is entered once
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core carries ghost state of its own
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    -- every segment is entered at the contents the one before leaves: the boundaries' contents are one fold
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    -- the first thread state from what the launch deals: the buffers at `m`, the generator register, nothing owed
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    -- the last thread state holds every unscoped buffer at `W10`: read each against the final state
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the result buffer and the ten argument buffers read: the result at the fold's last contents, each
    argument as launched (no host operation and no pallas_call writes an argument). -/
theorem run_named : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_held m ρ fun s h c =>
    ⟨h c _ (mem_uc main_v66 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩

end Cert.KernelIdeal.RunValue

end
-- ==== Proof.HostReads.lean ====
/-
  The host operations before the first pallas_call and between the second and the third, read one buffer at a time
  over ANY contents `W` of the buffers they start from: the bias as a one-row matrix; the column means
  (sums over the number of rows), the inverse standard deviations `1 / sqrt(max(E[a²] − E[a]², 0) + ε)` from the
  sums and the sums of squares, the scale, shift and class-bias vectors as one-row matrices; and the buffers those
  operations leave alone. A vector cast to a one-row matrix reads, at column `j`, the vector's entry `j`.
-/
import proofs.«176874_j1047972020880_2_alg».proof.Proof.Gen.KernelIdeal.Launch
import proofs.«176874_j1047972020880_2_alg».proof.Proof.Spec
import Idealize.ShloMosaic.Lib.StableHlo.Run
import Idealize.ShloMosaic.Lib.ValueLayout

set_option maxRecDepth 16384

noncomputable section

namespace Cert.KernelIdeal.HostReads

open Idealize.ShloMosaic Idealize.ShloMosaic.TcCoe Idealize.ShloMosaic.StableHlo Idealize.ShloMosaic.ValueIdx Idealize.SL.Sem
open Cert.KernelIdeal Cert.KernelIdeal.Gen

/-! ## A vector as a one-row matrix -/

/-- A vector of 32 cast to `[1, 32]` is the vector laid out as a row. -/
theorem cast_row32 (v : S32.Idx → EReal) : shapeCast S1x32 v shapeCasts_S32_S1x32 = Cert.Spec.row32 v := by
  funext i
  obtain ⟨u, j, rfl⟩ : ∃ (u : Fin 1) (j : Fin 32), i = ix2 u j := ⟨i 0, i 1, eq_ix2 i⟩
  exact shapeCast_a_1a_apply v shapeCasts_S32_S1x32 u j

/-- A vector of 6 cast to `[1, 6]` is the vector laid out as a row. -/
theorem cast_row6 (v : S6.Idx → EReal) : shapeCast S1x6 v shapeCasts_S6_S1x6 = Cert.Spec.row6 v := by
  funext i
  obtain ⟨u, j, rfl⟩ : ∃ (u : Fin 1) (j : Fin 6), i = ix2 u j := ⟨i 0, i 1, eq_ix2 i⟩
  exact shapeCast_a_1a_apply v shapeCasts_S6_S1x6 u j

variable (W : Valuation τ sig (Elt Ideal))

/-! ## Before the first pallas_call: the bias reshaped -/

theorem bias_read : StableHlo.after (hostOps0 (F := Ideal)) W (Proc.devRef .tc main_v0)
    = Cert.Spec.row32 (W (Proc.devRef .tc main_arg3)) := by
  after_results
  exact cast_row32 _

theorem kept0_arg0 : StableHlo.after (hostOps0 (F := Ideal)) W (Proc.devRef .tc main_arg0) = W (Proc.devRef .tc main_arg0) := by
  after_results
theorem kept0_arg1 : StableHlo.after (hostOps0 (F := Ideal)) W (Proc.devRef .tc main_arg1) = W (Proc.devRef .tc main_arg1) := by
  after_results
theorem kept0_arg2 : StableHlo.after (hostOps0 (F := Ideal)) W (Proc.devRef .tc main_arg2) = W (Proc.devRef .tc main_arg2) := by
  after_results
theorem kept0_arg4 : StableHlo.after (hostOps0 (F := Ideal)) W (Proc.devRef .tc main_arg4) = W (Proc.devRef .tc main_arg4) := by
  after_results
theorem kept0_arg5 : StableHlo.after (hostOps0 (F := Ideal)) W (Proc.devRef .tc main_arg5) = W (Proc.devRef .tc main_arg5) := by
  after_results

/-! ## Between the second and the third pallas_call: the statistics and the row vectors -/

/-- The column means: the sums over `150000.0`. -/
theorem mean_read : StableHlo.after (hostOps2 (F := Ideal)) W (Proc.devRef .tc main_v53)
    = Cert.Spec.meanRow (W (Proc.devRef .tc main_v51_0)) := by
  after_results
  rfl

/-- The inverse standard deviations from the sums and the sums of squares. -/
theorem invstd_read : StableHlo.after (hostOps2 (F := Ideal)) W (Proc.devRef .tc main_v62)
    = Cert.Spec.invStdRow (W (Proc.devRef .tc main_v51_0)) (W (Proc.devRef .tc main_v51_1)) := by
  after_results
  rfl

theorem gamma_read : StableHlo.after (hostOps2 (F := Ideal)) W (Proc.devRef .tc main_v63)
    = Cert.Spec.row32 (W (Proc.devRef .tc main_arg6)) := by
  after_results
  exact cast_row32 _

theorem beta_read : StableHlo.after (hostOps2 (F := Ideal)) W (Proc.devRef .tc main_v64)
    = Cert.Spec.row32 (W (Proc.devRef .tc main_arg7)) := by
  after_results
  exact cast_row32 _

theorem clsbias_read : StableHlo.after (hostOps2 (F := Ideal)) W (Proc.devRef .tc main_v65)
    = Cert.Spec.row6 (W (Proc.devRef .tc main_arg9)) := by
  after_results
  exact cast_row6 _

theorem kept2_agg : StableHlo.after (hostOps2 (F := Ideal)) W (Proc.devRef .tc main_v50) = W (Proc.devRef .tc main_v50) := by
  after_results
theorem kept2_arg8 : StableHlo.after (hostOps2 (F := Ideal)) W (Proc.devRef .tc main_arg8) = W (Proc.devRef .tc main_arg8) := by
  after_results
theorem kept2_arg6 : StableHlo.after (hostOps2 (F := Ideal)) W (Proc.devRef .tc main_arg6) = W (Proc.devRef .tc main_arg6) := by
  after_results
theorem kept2_arg7 : StableHlo.after (hostOps2 (F := Ideal)) W (Proc.devRef .tc main_arg7) = W (Proc.devRef .tc main_arg7) := by
  after_results
theorem kept2_arg9 : StableHlo.after (hostOps2 (F := Ideal)) W (Proc.devRef .tc main_arg9) = W (Proc.devRef .tc main_arg9) := by
  after_results

end Cert.KernelIdeal.HostReads

end
-- ==== Proof.Region0.lean ====
/-
  The first kernel of the layer, read as one function of whole arrays.

  The kernel walks the 150000 rows of `x` in 25 blocks of 6000 rows. At each block it forms the embedding
  `x · W_emb + b_emb` (the bias one row, repeated down the block), clamps it below at zero, multiplies by the graph
  layer's weights `W_gcn`, and stores the 6000 × 32 result as the matching block of rows of its output. Both products
  accumulate onto a zero matrix, and on extended reals a change of float format does nothing, so the entry stored at
  row `p`, column `q` of a block is

      ∑ k < 32, max ((∑ j < 22, x[p, j] · W_emb[j, k]) + b_emb[k]) 0 · W_gcn[k, q]

  with `x[p, ·]` the block's row `p`. A row of the output depends on the same row of `x` and on nothing else of `x`;
  the weights and the bias are read whole at every block. Block `t` holds rows `6000 t … 6000 t + 5999`, so row `r`
  of the array is row `r mod 6000` of block `r / 6000`, every row lies in exactly one block, and the array the kernel
  leaves is the hidden layer `Cert.Spec.hidden` of the arrays it was entered with — whatever those arrays hold.

  The module goes in that order: each matrix product at an entry; the stored entry of a block; each loaded block as
  a piece of its array; a block's entry as the hidden layer's entry `6000 t` rows down; the blocks tile the rows; the
  array.
-/
import proofs.«176874_j1047972020880_2_alg».proof.Proof.Gen.KernelIdeal.Frame
import proofs.«176874_j1047972020880_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Region0
open Cert.KernelIdeal Cert.KernelIdeal.Gen
open Idealize.ShloMosaic.ValueIdx

/-! ## The two matrix products at an entry

Each product accumulates onto the zero splat, so its entry at row `p`, column `q` is the plain sum, over the one shared
coordinate, of the left factor's row `p` against the right factor's column `q`. The four coordinate facts say which
coordinate of each operand the contraction index lands on. -/

theorem embedDot_lhs0 (i : S6000x32.Idx) (c : dot_S6000x22_S22x32_S6000x32_1_0_0_1_n_n.contr.Idx) : (dot_S6000x22_S22x32_S6000x32_1_0_0_1_n_n.lhsIdx i c 0).val = (i 0).val := by
  unfold DotDims.lhsIdx
  rw [dif_neg (show ¬(0 : Fin S6000x22.rank) ∈ dot_S6000x22_S22x32_S6000x32_1_0_0_1_n_n.lhsBatch by decide), dif_pos (show (0 : Fin S6000x22.rank) ∈ dot_S6000x22_S22x32_S6000x32_1_0_0_1_n_n.lhsNonContracting by decide)]
  rfl
theorem embedDot_lhs1 (i : S6000x32.Idx) (c : dot_S6000x22_S22x32_S6000x32_1_0_0_1_n_n.contr.Idx) : (dot_S6000x22_S22x32_S6000x32_1_0_0_1_n_n.lhsIdx i c 1).val = (c ⟨0, by decide⟩).val :=
  dot_S6000x22_S22x32_S6000x32_1_0_0_1_n_n.lhsIdx_val_of_single rfl i c
theorem embedDot_rhs0 (i : S6000x32.Idx) (c : dot_S6000x22_S22x32_S6000x32_1_0_0_1_n_n.contr.Idx) : (dot_S6000x22_S22x32_S6000x32_1_0_0_1_n_n.rhsIdx i c 0).val = (c ⟨0, by decide⟩).val :=
  dot_S6000x22_S22x32_S6000x32_1_0_0_1_n_n.rhsIdx_val_of_single rfl i c
theorem embedDot_rhs1 (i : S6000x32.Idx) (c : dot_S6000x22_S22x32_S6000x32_1_0_0_1_n_n.contr.Idx) : (dot_S6000x22_S22x32_S6000x32_1_0_0_1_n_n.rhsIdx i c 1).val = (i 1).val := by
  unfold DotDims.rhsIdx
  rw [dif_neg (show ¬(1 : Fin S22x32.rank) ∈ dot_S6000x22_S22x32_S6000x32_1_0_0_1_n_n.rhsBatch by decide), dif_pos (show (1 : Fin S22x32.rank) ∈ dot_S6000x22_S22x32_S6000x32_1_0_0_1_n_n.rhsNonContracting by decide)]
  rfl

/-- The embedding product at an entry: the sum over the 22 input features. -/
theorem embedDot_apply (a : FVec Ideal S6000x22 .bf16) (b : FVec Ideal S22x32 .bf16) (p : Fin 6000) (q : Fin 32) :
    FloatOps.matmul dot_S6000x22_S22x32_S6000x32_1_0_0_1_n_n none a b (constant S6000x32 .f32 0x00000000#32) (ix2 p q)
      = ∑ j : Fin 22, a (ix2 p j) * b (ix2 j q) := by
  rw [Ideal.matmul_constant_zero_apply, ← Equiv.sum_comp (contrEquiv1 dot_S6000x22_S22x32_S6000x32_1_0_0_1_n_n 22 rfl rfl).symm]
  refine Finset.sum_congr rfl fun j _ => ?_
  have hk := contrEquiv1_symm_val dot_S6000x22_S22x32_S6000x32_1_0_0_1_n_n 22 rfl rfl j
  have el : dot_S6000x22_S22x32_S6000x32_1_0_0_1_n_n.lhsIdx (ix2 p q) ((contrEquiv1 dot_S6000x22_S22x32_S6000x32_1_0_0_1_n_n 22 rfl rfl).symm j) = ix2 p j :=
    funext fun ax => Fin.ext (by
      match ax with
      | ⟨0, _⟩ => exact embedDot_lhs0 _ _
      | ⟨1, _⟩ => exact (embedDot_lhs1 _ _).trans hk)
  have er : dot_S6000x22_S22x32_S6000x32_1_0_0_1_n_n.rhsIdx (ix2 p q) ((contrEquiv1 dot_S6000x22_S22x32_S6000x32_1_0_0_1_n_n 22 rfl rfl).symm j) = ix2 j q :=
    funext fun ax => Fin.ext (by
      match ax with
      | ⟨0, _⟩ => exact (embedDot_rhs0 _ _).trans hk
      | ⟨1, _⟩ => exact embedDot_rhs1 _ _)
  rw [el, er]

theorem layerDot_lhs0 (i : S6000x32.Idx) (c : dot_S6000x32_S32x32_S6000x32_1_0_0_1_n_n.contr.Idx) : (dot_S6000x32_S32x32_S6000x32_1_0_0_1_n_n.lhsIdx i c 0).val = (i 0).val := by
  unfold DotDims.lhsIdx
  rw [dif_neg (show ¬(0 : Fin S6000x32.rank) ∈ dot_S6000x32_S32x32_S6000x32_1_0_0_1_n_n.lhsBatch by decide), dif_pos (show (0 : Fin S6000x32.rank) ∈ dot_S6000x32_S32x32_S6000x32_1_0_0_1_n_n.lhsNonContracting by decide)]
  rfl
theorem layerDot_lhs1 (i : S6000x32.Idx) (c : dot_S6000x32_S32x32_S6000x32_1_0_0_1_n_n.contr.Idx) : (dot_S6000x32_S32x32_S6000x32_1_0_0_1_n_n.lhsIdx i c 1).val = (c ⟨0, by decide⟩).val :=
  dot_S6000x32_S32x32_S6000x32_1_0_0_1_n_n.lhsIdx_val_of_single rfl i c
theorem layerDot_rhs0 (i : S6000x32.Idx) (c : dot_S6000x32_S32x32_S6000x32_1_0_0_1_n_n.contr.Idx) : (dot_S6000x32_S32x32_S6000x32_1_0_0_1_n_n.rhsIdx i c 0).val = (c ⟨0, by decide⟩).val :=
  dot_S6000x32_S32x32_S6000x32_1_0_0_1_n_n.rhsIdx_val_of_single rfl i c
theorem layerDot_rhs1 (i : S6000x32.Idx) (c : dot_S6000x32_S32x32_S6000x32_1_0_0_1_n_n.contr.Idx) : (dot_S6000x32_S32x32_S6000x32_1_0_0_1_n_n.rhsIdx i c 1).val = (i 1).val := by
  unfold DotDims.rhsIdx
  rw [dif_neg (show ¬(1 : Fin S32x32.rank) ∈ dot_S6000x32_S32x32_S6000x32_1_0_0_1_n_n.rhsBatch by decide), dif_pos (show (1 : Fin S32x32.rank) ∈ dot_S6000x32_S32x32_S6000x32_1_0_0_1_n_n.rhsNonContracting by decide)]
  rfl

/-- The graph layer's product at an entry: the sum over the 32 hidden features. -/
theorem layerDot_apply (a : FVec Ideal S6000x32 .bf16) (b : FVec Ideal S32x32 .bf16) (p : Fin 6000) (q : Fin 32) :
    FloatOps.matmul dot_S6000x32_S32x32_S6000x32_1_0_0_1_n_n none a b (constant S6000x32 .f32 0x00000000#32) (ix2 p q)
      = ∑ k : Fin 32, a (ix2 p k) * b (ix2 k q) := by
  rw [Ideal.matmul_constant_zero_apply, ← Equiv.sum_comp (contrEquiv1 dot_S6000x32_S32x32_S6000x32_1_0_0_1_n_n 32 rfl rfl).symm]
  refine Finset.sum_congr rfl fun k _ => ?_
  have hk := contrEquiv1_symm_val dot_S6000x32_S32x32_S6000x32_1_0_0_1_n_n 32 rfl rfl k
  have el : dot_S6000x32_S32x32_S6000x32_1_0_0_1_n_n.lhsIdx (ix2 p q) ((contrEquiv1 dot_S6000x32_S32x32_S6000x32_1_0_0_1_n_n 32 rfl rfl).symm k) = ix2 p k :=
    funext fun ax => Fin.ext (by
      match ax with
      | ⟨0, _⟩ => exact layerDot_lhs0 _ _
      | ⟨1, _⟩ => exact (layerDot_lhs1 _ _).trans hk)
  have er : dot_S6000x32_S32x32_S6000x32_1_0_0_1_n_n.rhsIdx (ix2 p q) ((contrEquiv1 dot_S6000x32_S32x32_S6000x32_1_0_0_1_n_n 32 rfl rfl).symm k) = ix2 k q :=
    funext fun ax => Fin.ext (by
      match ax with
      | ⟨0, _⟩ => exact (layerDot_rhs0 _ _).trans hk
      | ⟨1, _⟩ => exact layerDot_rhs1 _ _)
  rw [el, er]

/-! ## The body's one store at an entry -/

/-- What the body stores at row `p`, column `q` of its block, from the four blocks it loads: the rectified embedding of
    row `p` against column `q` of the layer's weights. Changes of float format are the identity on extended reals. -/
theorem embed_apply (x0 : Vec Ideal S6000x22 .f32) (x1 : Vec Ideal S22x32 .f32) (x2 : Vec Ideal S1x32 .f32)
    (x3 : Vec Ideal S32x32 .f32) (p : Fin 6000) (q : Fin 32) :
    k0_pay1 x0 x1 x2 x3 (ix2 p q)
      = ∑ k : Fin 32, max ((∑ j : Fin 22, x0 (ix2 p j) * x1 (ix2 j k)) + x2 (ix2 0 k)) Cert.Spec.zeroLit * x3 (ix2 k q) := by
  unfold k0_pay1
  refine (layerDot_apply _ _ p q).trans ?_
  refine Finset.sum_congr rfl fun k _ => ?_
  refine congrArg (· * x3 (ix2 k q)) ?_
  show max (FloatOps.matmul (F := Ideal) dot_S6000x22_S22x32_S6000x32_1_0_0_1_n_n none _ _ (constant S6000x32 .f32 0x00000000#32) (ix2 p k) + broadcastTo S6000x32 (shapeCast S1x32 x2 shapeCasts_S1x32_S1x32) broadcasts_S1x32_S6000x32 (ix2 p k)) _ = _
  rw [embedDot_apply, shapeCast_self, broadcastTo_1b_ab_apply]
  rfl

/-! ## From the blocks to the array -/

section Blocks
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 25 grid points: the rows of `x` and of the output move with the point, the two
    weight matrices and the bias stay whole. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of `x` at point `t` is rows `6000 t … 6000 t + 5999` of `x`. -/
theorem rows_block (c : Dev nD) (t : Fin cfg0.N) (y : S6000x22.Idx) (i : S150000x22.Idx)
    (h0 : (i 0).val = 6000 * t.val + (y 0).val) (h1 : (i 1).val = (y 1).val) :
    (iblk0 V c 0 t : Vec Ideal S6000x22 .f32) y = (V c main_arg0 : S150000x22.Idx → EReal) i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 6000 + 1 * (y 0).val = (i 0).val; rw [e0, h0]; omega
  | ⟨1, _⟩ => show win0_0.index t (1 : Fin 2) * 22 + 1 * (y 1).val = (i 1).val; rw [e1, h1]; omega

/-- The embedding weights' block is the whole matrix at every point. -/
theorem embed_weights_block (c : Dev nD) (t : Fin cfg0.N) :
    (iblk0 V c 1 t : Vec Ideal S22x32 .f32) = (V c main_arg2 : S22x32.Idx → EReal) := by
  obtain ⟨-, -, e0, e1, -⟩ := block_index t
  funext y
  unfold iblk0
  rw [View.read_apply]
  show V c main_arg2 _ = V c main_arg2 _
  congr 1
  funext a
  apply Fin.ext
  match a with
  | ⟨0, _⟩ => show win0_1.index t (0 : Fin 2) * 22 + 1 * (y 0).val = (y 0).val; rw [e0]; omega
  | ⟨1, _⟩ => show win0_1.index t (1 : Fin 2) * 32 + 1 * (y 1).val = (y 1).val; rw [e1]; omega

/-- The bias row's block is the whole row at every point. -/
theorem bias_block (c : Dev nD) (t : Fin cfg0.N) :
    (iblk0 V c 2 t : Vec Ideal S1x32 .f32) = (V c main_v0 : S1x32.Idx → EReal) := by
  obtain ⟨-, -, -, -, e0, e1, -⟩ := block_index t
  funext y
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The layer weights' block is the whole matrix at every point. -/
theorem layer_weights_block (c : Dev nD) (t : Fin cfg0.N) :
    (iblk0 V c 3 t : Vec Ideal S32x32 .f32) = (V c main_arg4 : S32x32.Idx → EReal) := by
  obtain ⟨-, -, -, -, -, -, e0, e1, -⟩ := block_index t
  funext y
  unfold iblk0
  rw [View.read_apply]
  show V c main_arg4 _ = V c main_arg4 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-- The body's entry against the hidden layer, over plain arrays: if the body's first block is rows
    `6000 n … 6000 n + 5999` of `X`, what it stores at entry `y` is the hidden layer of `X` at the entry `6000 n` rows
    further down. -/
theorem hidden_of_rows (X : S150000x22.Idx → EReal) (We : S22x32.Idx → EReal) (be : S1x32.Idx → EReal)
    (Wg : S32x32.Idx → EReal) (x0 : Vec Ideal S6000x22 .f32) (n : Nat)
    (hx0 : ∀ (p : Fin 6000) (j : Fin 22) (r : Fin 150000), r.val = 6000 * n + p.val → x0 (ix2 p j) = X (ix2 r j))
    (y : S6000x32.Idx) (i : S150000x32.Idx) (h0 : (i 0).val = 6000 * n + (y 0).val) (h1 : (i 1).val = (y 1).val) :
    k0_pay1 x0 We be Wg y = Cert.Spec.hidden X We be Wg i := by
  obtain ⟨p, q, rfl⟩ : ∃ (p : Fin 6000) (q : Fin 32), y = ix2 p q := ⟨y 0, y 1, eq_ix2 y⟩
  obtain ⟨r, s, rfl⟩ : ∃ (r : Fin 150000) (s : Fin 32), i = ix2 r s := ⟨i 0, i 1, eq_ix2 i⟩
  have hr : r.val = 6000 * n + p.val := h0
  obtain rfl : s = q := Fin.ext h1
  refine (embed_apply x0 We be Wg p s).trans ?_
  show _ = ∑ k : Fin 32, max ((∑ j : Fin 22, X (ix2 r j) * We (ix2 j k)) + be (ix2 0 k)) Cert.Spec.zeroLit * Wg (ix2 k s)
  refine Finset.sum_congr rfl fun k _ => ?_
  refine congrArg (fun z => max (z + be (ix2 0 k)) Cert.Spec.zeroLit * Wg (ix2 k s)) ?_
  refine Finset.sum_congr rfl fun j _ => ?_
  exact congrArg (· * We (ix2 j k)) (hx0 p j r hr)

/-- What the body stores at entry `y` of its block at point `t` is the hidden layer at the array entry `i` that sits
    `6000 t` rows further down: the body's first block is those rows of `x`, and the weights and the bias are whole. -/
theorem block_entry (c : Dev nD) (t : Fin cfg0.N) (y : S6000x32.Idx) (i : S150000x32.Idx)
    (h0 : (i 0).val = 6000 * t.val + (y 0).val) (h1 : (i 1).val = (y 1).val) :
    k0_pay1 (iblk0 V c 0 t) (iblk0 V c 1 t) (iblk0 V c 2 t) (iblk0 V c 3 t) y
      = Cert.Spec.hidden (V c main_arg0) (V c main_arg2) (V c main_v0) (V c main_arg4) i := by
  rw [embed_weights_block V c t, bias_block V c t, layer_weights_block V c t]
  exact hidden_of_rows (V c main_arg0) (V c main_arg2) (V c main_v0) (V c main_arg4) (iblk0 V c 0 t) t.val
    (fun p j r hr => rows_block V c t (ix2 p j) (ix2 r j) hr rfl) y i h0 h1

/-- What point `t` writes back is block `t` of the hidden layer of the arrays as the region finds them. -/
theorem flushed_eq (c : Dev nD) (t : Fin cfg0.N) :
    (dat0 (F := Ideal) V c).flushed 4 t
      = ((cfg0.win 4).blk t).view.read (Elt Ideal) (Cert.Spec.hidden (V c main_arg0) (V c main_arg2) (V c main_v0) (V c main_arg4)) := by
  show (cfg0.win 4).cut (grid0.coords t) ((dat0 V c).after 4 t) = _
  rw [after0_4]
  unfold out0_4
  rw [View.canon_unit_zero zero_offsets]
  simp only [View.ld_unit_zero (S := S6000x22) zero_offsets, View.ld_unit_zero (S := S22x32) zero_offsets,
    View.ld_unit_zero (S := S1x32) zero_offsets, View.ld_unit_zero (S := S32x32) zero_offsets]
  obtain ⟨-, -, -, -, -, -, -, -, e0, e1⟩ := block_index t
  funext y
  show k0_pay1 (iblk0 V c 0 t) (iblk0 V c 1 t) (iblk0 V c 2 t) (iblk0 V c 3 t) y
    = Cert.Spec.hidden (V c main_arg0) (V c main_arg2) (V c main_v0) (V c main_arg4) (((cfg0.win 4).blk t).view.emb y)
  refine block_entry V c t y (((cfg0.win 4).blk t).view.emb y) ?_ ?_
  · show win0_4.index t (0 : Fin 2) * 6000 + 1 * (y 0).val = 6000 * t.val + (y 0).val
    rw [e0]; omega
  · show win0_4.index t (1 : Fin 2) * 32 + 1 * (y 1).val = (y 1).val
    rw [e1]; omega

/-- An entry of the output array is in point `t`'s block iff each coordinate is in the block's range on its axis. -/
theorem mem_block (t : Fin cfg0.N) (i : S150000x32.Idx) :
    i ∈ ((cfg0.win 4).blk t).view.set ↔ ∀ a : Fin 2, win0_4.index t a * S6000x32.size a ≤ (i a).val ∧ (i a).val < win0_4.index t a * S6000x32.size a + S6000x32.size a := by
  show i ∈ ((View.whole main_v1).slice (win0_4.rect t)).set ↔ _
  rw [View.set_slice_whole, Rect.mem_set_unit]
  exact Iff.rfl

/-- The 25 blocks of 6000 rows tile the 150000 rows: row `r` is in the block of point `r / 6000`. -/
theorem covered (i : S150000x32.Idx) :
    ∃ t : Fin cfg0.N, (cfg0.win 4).flush t = true ∧ i ∈ ((cfg0.win 4).blk t).view.set := by
  have hi0 : (i 0).val < 150000 := (i 0).isLt
  have hi1 : (i 1).val < 32 := (i 1).isLt
  have hN : cfg0.N = 25 := N_0
  have ht : (i 0).val / 6000 < cfg0.N := by rw [hN]; omega
  obtain ⟨-, -, -, -, -, -, -, -, e0, e1⟩ := block_index ⟨(i 0).val / 6000, ht⟩
  refine ⟨⟨(i 0).val / 6000, ht⟩, flush0_4 _, ?_⟩
  rw [mem_block]
  intro a
  match a with
  | ⟨0, _⟩ =>
    show win0_4.index ⟨(i 0).val / 6000, ht⟩ (0 : Fin 2) * 6000 ≤ (i 0).val ∧ (i 0).val < win0_4.index ⟨(i 0).val / 6000, ht⟩ (0 : Fin 2) * 6000 + 6000
    rw [e0]; show (i 0).val / 6000 * 6000 ≤ (i 0).val ∧ (i 0).val < (i 0).val / 6000 * 6000 + 6000; omega
  | ⟨1, _⟩ =>
    show win0_4.index ⟨(i 0).val / 6000, ht⟩ (1 : Fin 2) * 32 ≤ (i 1).val ∧ (i 1).val < win0_4.index ⟨(i 0).val / 6000, ht⟩ (1 : Fin 2) * 32 + 32
    rw [e1]; omega

end Blocks

/-- After the region the output array holds the hidden layer of the arrays as the region found them. -/
theorem final (V : (c : Dev nD) → (b : Ref sig .tc) → Buf (Elt Ideal) ((c : Thread nD τ).loc b)) (c : Dev nD) :
    (dat0 (F := Ideal) V c).arrAt 4 cfg0.N
      = Cert.Spec.hidden (V c main_arg0) (V c main_arg2) (V c main_v0) (V c main_arg4) :=
  (dat0 V c).arrAt_eq_of_cover 4 (Cert.Spec.hidden (V c main_arg0) (V c main_arg2) (V c main_v0) (V c main_arg4))
    (fun t _ => flushed_eq V c t) covered

end Cert.KernelIdeal.Region0

end
-- ==== Proof.Region1.lean ====
/-
  The statistics kernel, read as mathematics. Its grid has 25 points; point `t` sees rows `6000·t … 6000·t + 5999` of
  the [150000,32] input and the two [1,32] accumulators, whose block never moves and which are therefore carried from
  one point to the next. At the first point the accumulators are reset to the zero row; at every point the block's
  column sums are added to the first accumulator and the column sums of the block's squares to the second; only after
  the last point are the accumulators written back, each to the whole of its one-row array.

  So, whatever the arrays hold when the region is entered:
    * the array of sums ends holding, in column `k`, the sum over all 150000 rows of the input's column `k`;
    * the array of sums of squares ends holding the sum of the squares of that column;
    * the input array, only read, ends as it was found.

  The argument. Each control case (reset taken / not taken) leaves in an accumulator's staging buffer one covering
  store, whose value is the accumulation payload of the point's block and of what the buffer held (the zero row just
  stored, at the first point). On the extended reals that payload at column `k` is the old entry plus the sum down the
  block's 6000 rows (of the entries, or of their squares): the lane reduction is a finite sum and the casts between
  [32] and [1,32] only rename the index. A column is then carried as a sequence indexed by the row number, so that the
  invariant "after point `n` the accumulator holds the sum of the first `6000·(n+1)` terms" steps by appending the
  next 6000 terms — addition of extended reals is associative, no finiteness is needed — and at `n = 24` the range is
  all of the rows because 25 · 6000 = 150000. The single write-back's block is the whole one-row array, read through
  zero offsets, so the array ends holding exactly the accumulator.
-/
import proofs.«176874_j1047972020880_2_alg».proof.Proof.Gen.KernelIdeal.Frame
import proofs.«176874_j1047972020880_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Region1
open Cert.KernelIdeal Cert.KernelIdeal.Gen

/-! ## What each control case leaves in the two accumulators' staging buffers -/

section Pieces
variable {F : FTy → Type} [FloatOps F]

theorem hz : (![0, 0] : Fin 2 → Nat) = fun _ => 0 := funext fun a => by fin_cases a <;> rfl

/-- A later point (the reset not taken): the first accumulator, holding `xo1`, is left at the accumulation
    payload of the point's block `x0` and `xo1` — one covering store whose loads read the whole buffers. -/
theorem piece_B_1 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : ¬cond1_0 i) (x0 : Vec F S6000x32 .f32) (xo1 xo2 : Vec F S1x32 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  rw [View.canon_unit_zero hz]
  simp only [View.readAt_eq_ld, h1.read_unread, h2.read_unread, View.ld_unit_zero (S := S6000x32) hz,
    View.ld_unit_zero (S := S1x32) hz]

/-- Likewise the second accumulator, holding `xo2`: the payload of the block's squares and `xo2`. -/
theorem piece_B_2 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : ¬cond1_0 i) (x0 : Vec F S6000x32 .f32) (xo1 xo2 : Vec F S1x32 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  rw [View.canon_unit_zero hz]
  simp only [View.readAt_eq_ld, h1.read_unread, h3.read_unread, View.ld_unit_zero (S := S6000x32) hz,
    View.ld_unit_zero (S := S1x32) hz]

/-- The first point (the reset taken): the zero row is stored, read back, and the block accumulated onto it. -/
theorem piece_A_1 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : cond1_0 i) (x0 : Vec F S6000x32 .f32) :
    out1_A_1 c i a1 h1 a2 h2 a3 h3 hc x0 = k1_pay4 x0 k1_pay1 := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S6000x32) hz]

theorem piece_A_2 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : cond1_0 i) (x0 : Vec F S6000x32 .f32) :
    out1_A_2 c i a1 h1 a2 h2 a3 h3 hc x0 = k1_pay5 x0 k1_pay2 := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S6000x32) hz]

end Pieces

/-! ## The payloads at an index, on the extended reals -/

open Idealize.ShloMosaic.ValueIdx

/-- The zero row the reset stores. -/
theorem pay1_apply (u : Fin 1) (k : Fin 32) : k1_pay1 (F := Ideal) (ix2 u k) = 0 := Ideal.ofBits_zero_f32

theorem pay2_apply (u : Fin 1) (k : Fin 32) : k1_pay2 (F := Ideal) (ix2 u k) = 0 := Ideal.ofBits_zero_f32

/-- The sum down the rows of a [6000,32] block, at column `k`. -/
theorem laneSum_apply (x : FVec Ideal S6000x32 .f32) (hφ : FKind.Formats .f32)
    (hacc : (0x00000000#32 : BitVec 32) = FKind.add.neutral .f32 hφ) (k : Fin 32) :
    multiReduction (F := Ideal) .add [0] S32 x 0x00000000#32 reduces_S6000x32_S32 hφ hacc (ix1 k)
      = ∑ r : Fin 6000, x (ix2 r k) := by
  refine (Ideal.multiReduction_add_single x 0x00000000#32 reduces_S6000x32_S32 hφ hacc (ix1 k)).trans ?_
  refine Finset.sum_congr rfl fun r _ => congrArg x ?_
  funext a
  match a with
  | ⟨0, _⟩ => rfl
  | ⟨1, _⟩ => rfl

/-- The accumulation payload of the sums: the accumulator plus the block's column sums. -/
theorem pay4_apply (x0 : Vec Ideal S6000x32 .f32) (acc : Vec Ideal S1x32 .f32) (u : Fin 1) (k : Fin 32) :
    k1_pay4 (F := Ideal) x0 acc (ix2 u k) = acc (ix2 u k) + ∑ r : Fin 6000, x0 (ix2 r k) := by
  unfold k1_pay4 k1_pay3
  refine congrArg₂ (· + ·) (congrFun (shapeCast_self acc _) _) ?_
  refine (shapeCast_a_1a_apply _ _ u k).trans ?_
  refine (laneSum_apply _ _ _ k).trans ?_
  exact Finset.sum_congr rfl fun r _ => congrFun (shapeCast_self x0 _) _

/-- The accumulation payload of the sums of squares. -/
theorem pay5_apply (x0 : Vec Ideal S6000x32 .f32) (acc : Vec Ideal S1x32 .f32) (u : Fin 1) (k : Fin 32) :
    k1_pay5 (F := Ideal) x0 acc (ix2 u k) = acc (ix2 u k) + ∑ r : Fin 6000, x0 (ix2 r k) * x0 (ix2 r k) := by
  unfold k1_pay5 k1_pay3
  refine congrArg₂ (· + ·) (congrFun (shapeCast_self acc _) _) ?_
  refine (shapeCast_a_1a_apply _ _ u k).trans ?_
  refine (laneSum_apply _ _ _ k).trans ?_
  refine Finset.sum_congr rfl fun r _ => ?_
  have e : shapeCast S6000x32 x0 shapeCasts_S6000x32_S6000x32 = x0 := shapeCast_self x0 _
  show shapeCast S6000x32 x0 shapeCasts_S6000x32_S6000x32 (ix2 r k) * shapeCast S6000x32 x0 shapeCasts_S6000x32_S6000x32 (ix2 r k) = _
  rw [e]

/-! ## The point's block of the input, and the running sums

Point `t` reads rows `6000·t … 6000·t + 5999` of the array. A column of the array, or of its squares, is carried as a
sequence of extended reals indexed by the row number (zero past the last row), so that the running sum after point `n`
is the sum of the first `6000·(n+1)` terms and a step appends the next 6000. -/

/-- A function of the row, as a sequence: zero past the last row. -/
def seqOf (g : Fin 150000 → EReal) (r : ℕ) : EReal := if h : r < 150000 then g ⟨r, h⟩ else 0

theorem seqOf_of_lt (g : Fin 150000 → EReal) (r : ℕ) (h : r < 150000) : seqOf g r = g ⟨r, h⟩ := dif_pos h

/-- The sum of the whole sequence is the sum over the rows. -/
theorem sum_seqOf (g : Fin 150000 → EReal) : ∑ r ∈ Finset.range 150000, seqOf g r = ∑ r : Fin 150000, g r := by
  rw [← Fin.sum_univ_eq_sum_range]
  exact Finset.sum_congr rfl fun r _ => seqOf_of_lt g r.val r.isLt

/-- One step of the accumulation: the first `6000·n` terms plus the next 6000 are the first `6000·(n+1)`. -/
theorem step_sum (g : Fin 150000 → EReal) (n : ℕ) (s : Fin 6000 → EReal) (acc : EReal)
    (hs : ∀ r : Fin 6000, s r = seqOf g (6000 * n + r.val))
    (hacc : acc = ∑ r ∈ Finset.range (6000 * n), seqOf g r) :
    acc + ∑ r : Fin 6000, s r = ∑ r ∈ Finset.range (6000 * (n + 1)), seqOf g r := by
  rw [Nat.mul_succ, Finset.sum_range_add, hacc, ← Fin.sum_univ_eq_sum_range (fun r => seqOf g (6000 * n + r)) 6000]
  exact congrArg _ (Finset.sum_congr rfl fun r _ => hs r)

/-- Where the input window's block sits: row block `t`, the one column block. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The block at point `t` reads the array at row `6000·t + r`. -/
theorem iblk_apply (V : (c : Dev nD) → (b : Ref sig .tc) → Buf (Elt Ideal) ((c : Thread nD τ).loc b)) (c : Dev nD)
    (t : Fin cfg1.N) (r : Fin 6000) (k : Fin 32) (hlt : 6000 * t.val + r.val < 150000) :
    (iblk1 (F := Ideal) V c 0 t : Vec Ideal S6000x32 .f32) (ix2 r k)
      = V c main_v50 (ix2 (⟨6000 * t.val + r.val, hlt⟩ : Fin 150000) k) := by
  unfold iblk1
  rw [View.read_apply]
  show V c main_v50 _ = V c main_v50 _
  congr 1
  funext a
  apply Fin.ext
  match a with
  | ⟨0, _⟩ => show win1_0.index t 0 * 6000 + 1 * r.val = 6000 * t.val + r.val; rw [(idx_facts t).1]; omega
  | ⟨1, _⟩ => show win1_0.index t 1 * 32 + 1 * k.val = k.val; rw [(idx_facts t).2]; omega

/-! ## The invariant: after point `n` the accumulators hold the sums over the first `6000·(n+1)` rows -/

/-- Column `k` of an array of 150000 rows. -/
abbrev colOf (a : Cert.Spec.SNx32.Idx → EReal) (k : Fin 32) : Fin 150000 → EReal := fun r => a (ix2 r k)
/-- Column `k` of its squares. -/
abbrev colSqOf (a : Cert.Spec.SNx32.Idx → EReal) (k : Fin 32) : Fin 150000 → EReal := fun r => a (ix2 r k) * a (ix2 r k)

/-- A block that reads a column's rows reads, squared, the rows of the column of squares. -/
theorem sq_of_col (a : Cert.Spec.SNx32.Idx → EReal) (k : Fin 32) (n : ℕ) (hn : n < 25) (x0 : Vec Ideal S6000x32 .f32)
    (h : ∀ r : Fin 6000, x0 (ix2 r k) = seqOf (colOf a k) (6000 * n + r.val)) (r : Fin 6000) :
    x0 (ix2 r k) * x0 (ix2 r k) = seqOf (colSqOf a k) (6000 * n + r.val) := by
  have hr := r.isLt
  have hlt : 6000 * n + r.val < 150000 := by omega
  rw [h r, seqOf_of_lt _ _ hlt, seqOf_of_lt _ _ hlt]

section Invariant
variable (V : (c : Dev nD) → (b : Ref sig .tc) → Buf (Elt Ideal) ((c : Thread nD τ).loc b)) (c : Dev nD)

theorem blk_col (t : Fin cfg1.N) (k : Fin 32) (r : Fin 6000) :
    (iblk1 (F := Ideal) V c 0 t : Vec Ideal S6000x32 .f32) (ix2 r k)
      = seqOf (colOf (V c main_v50) k) (6000 * t.val + r.val) := by
  have ht : t.val < 25 := lt_of_lt_of_eq t.isLt N_1
  have hr := r.isLt
  have hlt : 6000 * t.val + r.val < 150000 := by omega
  rw [seqOf_of_lt _ _ hlt]
  exact iblk_apply V c t r k hlt

theorem outsAt_eq (u : Fin 1) (k : Fin 32) : ∀ (n : ℕ) (hn : n < cfg1.N),
    (outsAt1 (F := Ideal) V c n hn).1 (ix2 u k) = ∑ r ∈ Finset.range (6000 * (n + 1)), seqOf (colOf (V c main_v50) k) r
    ∧ (outsAt1 (F := Ideal) V c n hn).2 (ix2 u k) = ∑ r ∈ Finset.range (6000 * (n + 1)), seqOf (colSqOf (V c main_v50) k) r := by
  intro n
  induction n with
  | zero =>
    intro hn
    rw [outsAt1_A V c ⟨0, hn⟩ rfl]
    dsimp only
    constructor
    · refine (congrFun (piece_A_1 (F := Ideal) c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (iblk1 V c 0 ⟨0, hn⟩)) (ix2 u k)).trans ?_
      refine (pay4_apply (iblk1 V c 0 ⟨0, hn⟩) (k1_pay1 (F := Ideal)) u k).trans ?_
      exact step_sum (colOf (V c main_v50) k) 0 _ _ (fun r => blk_col V c ⟨0, hn⟩ k r)
        ((pay1_apply u k).trans (by rw [Nat.mul_zero, Finset.range_zero, Finset.sum_empty]))
    · refine (congrFun (piece_A_2 (F := Ideal) c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (iblk1 V c 0 ⟨0, hn⟩)) (ix2 u k)).trans ?_
      refine (pay5_apply (iblk1 V c 0 ⟨0, hn⟩) (k1_pay2 (F := Ideal)) u k).trans ?_
      exact step_sum (colSqOf (V c main_v50) k) 0 _ _
        (sq_of_col (V c main_v50) k 0 (by decide) (iblk1 V c 0 ⟨0, hn⟩) (fun r => blk_col V c ⟨0, hn⟩ k r))
        ((pay2_apply u k).trans (by rw [Nat.mul_zero, Finset.range_zero, Finset.sum_empty]))
  | succ n ih =>
    intro hn
    have hn' : n + 1 < 25 := lt_of_lt_of_eq hn N_1
    have hB : ¬(⟨n + 1, hn⟩ : Fin cfg1.N).val % 25 = 0 := by dsimp only; omega
    obtain ⟨ih1, ih2⟩ := ih (Nat.lt_of_succ_lt hn)
    rw [outsAt1_B V c ⟨n + 1, hn⟩ hB]
    dsimp only
    constructor
    · refine (congrFun (piece_B_1 (F := Ideal) c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) (fun h => hB ((hcond1_0 ⟨n + 1, hn⟩).mp h))
        (iblk1 V c 0 ⟨n + 1, hn⟩) (outsAt1 V c n (Nat.lt_of_succ_lt hn)).1 (outsAt1 V c n (Nat.lt_of_succ_lt hn)).2) (ix2 u k)).trans ?_
      refine (pay4_apply (iblk1 V c 0 ⟨n + 1, hn⟩) (outsAt1 V c n (Nat.lt_of_succ_lt hn)).1 u k).trans ?_
      exact step_sum (colOf (V c main_v50) k) (n + 1) _ _ (fun r => blk_col V c ⟨n + 1, hn⟩ k r) ih1
    · refine (congrFun (piece_B_2 (F := Ideal) c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) (fun h => hB ((hcond1_0 ⟨n + 1, hn⟩).mp h))
        (iblk1 V c 0 ⟨n + 1, hn⟩) (outsAt1 V c n (Nat.lt_of_succ_lt hn)).1 (outsAt1 V c n (Nat.lt_of_succ_lt hn)).2) (ix2 u k)).trans ?_
      refine (pay5_apply (iblk1 V c 0 ⟨n + 1, hn⟩) (outsAt1 V c n (Nat.lt_of_succ_lt hn)).2 u k).trans ?_
      exact step_sum (colSqOf (V c main_v50) k) (n + 1) _ _
        (sq_of_col (V c main_v50) k (n + 1) hn' (iblk1 V c 0 ⟨n + 1, hn⟩) (fun r => blk_col V c ⟨n + 1, hn⟩ k r)) ih2

end Invariant

/-! ## The arrays: the one write-back, after the last point, writes the whole one-row array -/

section Final
variable (V : (c : Dev nD) → (b : Ref sig .tc) → Buf (Elt Ideal) ((c : Thread nD τ).loc b)) (c : Dev nD)

/-- The last point of the grid. -/
abbrev tLast : Fin cfg1.N := ⟨24, by rw [show cfg1.N = 25 from N_1]; decide⟩

/-- After the last point the first accumulator holds every column's sum over all 150000 rows: 25 · 6000 = 150000. -/
theorem acc_sum : (outsAt1 (F := Ideal) V c tLast.val tLast.isLt).1 = Cert.Spec.colSum (V c main_v50) := by
  funext i
  obtain ⟨u, k, rfl⟩ : ∃ (u : Fin 1) (k : Fin 32), i = ix2 u k := ⟨i 0, i 1, eq_ix2 i⟩
  refine ((outsAt_eq V c u k 24 tLast.isLt).1).trans ?_
  exact sum_seqOf (colOf (V c main_v50) k)

/-- And the second every column's sum of squares. -/
theorem acc_sumsq : (outsAt1 (F := Ideal) V c tLast.val tLast.isLt).2 = Cert.Spec.colSumSq (V c main_v50) := by
  funext i
  obtain ⟨u, k, rfl⟩ : ∃ (u : Fin 1) (k : Fin 32), i = ix2 u k := ⟨i 0, i 1, eq_ix2 i⟩
  refine ((outsAt_eq V c u k 24 tLast.isLt).2).trans ?_
  exact sum_seqOf (colSqOf (V c main_v50) k)

/-- A write-back happens at the last point only. -/
theorem eq_tLast_of_flush_1 (t : Fin cfg1.N) (hf : (cfg1.win 1).flush t = true) : t = tLast := by
  have h1 := (flush1_1 t).mp hf
  have h2 : t.val < 25 := lt_of_lt_of_eq t.isLt N_1
  exact Fin.ext (by show t.val = 24; omega)

theorem eq_tLast_of_flush_2 (t : Fin cfg1.N) (hf : (cfg1.win 2).flush t = true) : t = tLast := by
  have h1 := (flush1_2 t).mp hf
  have h2 : t.val < 25 := lt_of_lt_of_eq t.isLt N_1
  exact Fin.ext (by show t.val = 24; omega)

/-- What it writes to the array of sums: block (0, 0) of the [1,32] array, read through zero offsets, is the array. -/
theorem flushed_eq_1 (t : Fin cfg1.N) (hf : (cfg1.win 1).flush t = true) :
    (dat1 (F := Ideal) V c).flushed 1 t = ((cfg1.win 1).blk t).view.read (Elt Ideal) (Cert.Spec.colSum (V c main_v50)) := by
  obtain rfl : t = tLast := eq_tLast_of_flush_1 t hf
  show (cfg1.win 1).cut (grid1.coords tLast) ((dat1 V c).after 1 tLast) = _
  rw [after1_1, acc_sum]
  have hz' : (fun a => win1_1.index tLast a * main_v51_0.ty.shape.size a) = fun _ => 0 := funext fun a => by fin_cases a <;> decide
  exact (Memref.read_access_unit_zero (Elt Ideal) main_v51_0 hz' (fun a => by rw [congrFun hz' a]; simp) (Cert.Spec.colSum (V c main_v50))).symm

theorem flushed_eq_2 (t : Fin cfg1.N) (hf : (cfg1.win 2).flush t = true) :
    (dat1 (F := Ideal) V c).flushed 2 t = ((cfg1.win 2).blk t).view.read (Elt Ideal) (Cert.Spec.colSumSq (V c main_v50)) := by
  obtain rfl : t = tLast := eq_tLast_of_flush_2 t hf
  show (cfg1.win 2).cut (grid1.coords tLast) ((dat1 V c).after 2 tLast) = _
  rw [after1_2, acc_sumsq]
  have hz' : (fun a => win1_2.index tLast a * main_v51_1.ty.shape.size a) = fun _ => 0 := funext fun a => by fin_cases a <;> decide
  exact (Memref.read_access_unit_zero (Elt Ideal) main_v51_1 hz' (fun a => by rw [congrFun hz' a]; simp) (Cert.Spec.colSumSq (V c main_v50))).symm

end Final

/-- The array of sums ends holding every column's sum over all rows. -/
theorem final_sum (V : (c : Dev nD) → (b : Ref sig .tc) → Buf (Elt Ideal) ((c : Thread nD τ).loc b)) (c : Dev nD) :
    (dat1 (F := Ideal) V c).arrAt 1 cfg1.N = Cert.Spec.colSum (V c main_v50) :=
  (dat1 V c).arrAt_eq_of_cover 1 (Cert.Spec.colSum (V c main_v50)) (flushed_eq_1 V c) fun i =>
    ⟨tLast, (flush1_1 tLast).mpr rfl, by
      show i ∈ ((View.whole main_v51_0).slice (win1_1.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 32 from by decide +kernel]; omega⟩

/-- The array of sums of squares ends holding every column's sum of squares over all rows. -/
theorem final_sumsq (V : (c : Dev nD) → (b : Ref sig .tc) → Buf (Elt Ideal) ((c : Thread nD τ).loc b)) (c : Dev nD) :
    (dat1 (F := Ideal) V c).arrAt 2 cfg1.N = Cert.Spec.colSumSq (V c main_v50) :=
  (dat1 V c).arrAt_eq_of_cover 2 (Cert.Spec.colSumSq (V c main_v50)) (flushed_eq_2 V c) fun i =>
    ⟨tLast, (flush1_2 tLast).mpr rfl, by
      show i ∈ ((View.whole main_v51_1).slice (win1_2.rect tLast)).set
      rw [View.set_slice_whole, Rect.mem_set_unit]
      intro a
      have h0 : (i 0 : Nat) < 1 := (i 0).isLt
      have h1 : (i 1 : Nat) < 32 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 32 from by decide +kernel]; omega⟩

/-- The input array is only read: it ends as the region found it. -/
theorem final_in (V : (c : Dev nD) → (b : Ref sig .tc) → Buf (Elt Ideal) ((c : Thread nD τ).loc b)) (c : Dev nD) :
    (dat1 (F := Ideal) V c).arrAt 0 cfg1.N = V c main_v50 :=
  ((dat1 V c).arrAt_in 0 rfl _).trans (A_eq1 V c 0)

end Cert.KernelIdeal.Region1
end
-- ==== Proof.Region2.lean ====
/-
  Kernel 2 of the layer (normalise, scale and shift, rectify, classify), read as one function of whole arrays.

  The kernel runs over 25 grid points. At point t it loads rows 6000 t to 6000 t + 5999 of the aggregated features
  (a [6000, 32] block), the four per-column rows (mean, inverse deviation, scale, shift; each a whole [1, 32] array), the
  classifier's weights (a whole [32, 6] array) and its bias (a whole [1, 6] array), and stores one [6000, 6] block, which
  is written back to rows 6000 t to 6000 t + 5999 of the output.

  Three steps. (1) The stored block at an entry (p, q): the matrix product onto a zero accumulator is the sum over the 32
  features of the left operand at (p, k) times the right operand at (k, q); the left operand is the rectified
  normalised feature max(((x - mean) * invstd * scale) + shift, 0), the per-column rows being broadcast down the block and
  the narrowings to the shorter format being the identity on exact values; the bias row is broadcast and added. (2) At
  point t the loaded blocks are the arrays read at row 6000 t + p (features) and at their own indices (the whole-array
  operands), so the stored value at (p, q) is the layer's output at (6000 t + p, q): each point writes back its block of
  ONE function of the arrays. (3) Row r lies in the block of point r / 6000, so the 25 blocks cover the 150000 rows, and
  the output array ends holding that function everywhere, whatever the operands held on entry.
-/
import proofs.«176874_j1047972020880_2_alg».proof.Proof.Gen.KernelIdeal.Frame
import proofs.«176874_j1047972020880_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.KernelIdeal.Region2
open Cert.KernelIdeal Cert.KernelIdeal.Gen Idealize.ShloMosaic.ValueIdx

/-! ## The contraction's operand indices

At output entry (p, q) and contraction coordinate k the product read is the left operand at (p, k) times the
right operand at (k, q). -/

theorem lhs_row (i : S6000x6.Idx) (c : dot_S6000x32_S32x6_S6000x6_1_0_0_1_n_n.contr.Idx) :
    (dot_S6000x32_S32x6_S6000x6_1_0_0_1_n_n.lhsIdx i c 0).val = (i 0).val := by
  unfold DotDims.lhsIdx
  rw [dif_neg (show ¬(0 : Fin S6000x32.rank) ∈ dot_S6000x32_S32x6_S6000x6_1_0_0_1_n_n.lhsBatch by decide),
    dif_pos (show (0 : Fin S6000x32.rank) ∈ dot_S6000x32_S32x6_S6000x6_1_0_0_1_n_n.lhsNonContracting by decide)]
  rfl

theorem lhs_col (i : S6000x6.Idx) (c : dot_S6000x32_S32x6_S6000x6_1_0_0_1_n_n.contr.Idx) :
    (dot_S6000x32_S32x6_S6000x6_1_0_0_1_n_n.lhsIdx i c 1).val = (c ⟨0, by decide⟩).val :=
  dot_S6000x32_S32x6_S6000x6_1_0_0_1_n_n.lhsIdx_val_of_single rfl i c

theorem rhs_row (i : S6000x6.Idx) (c : dot_S6000x32_S32x6_S6000x6_1_0_0_1_n_n.contr.Idx) :
    (dot_S6000x32_S32x6_S6000x6_1_0_0_1_n_n.rhsIdx i c 0).val = (c ⟨0, by decide⟩).val :=
  dot_S6000x32_S32x6_S6000x6_1_0_0_1_n_n.rhsIdx_val_of_single rfl i c

theorem rhs_col (i : S6000x6.Idx) (c : dot_S6000x32_S32x6_S6000x6_1_0_0_1_n_n.contr.Idx) :
    (dot_S6000x32_S32x6_S6000x6_1_0_0_1_n_n.rhsIdx i c 1).val = (i 1).val := by
  unfold DotDims.rhsIdx
  rw [dif_neg (show ¬(1 : Fin S32x6.rank) ∈ dot_S6000x32_S32x6_S6000x6_1_0_0_1_n_n.rhsBatch by decide),
    dif_pos (show (1 : Fin S32x6.rank) ∈ dot_S6000x32_S32x6_S6000x6_1_0_0_1_n_n.rhsNonContracting by decide)]
  rfl

theorem lhs_at (p : Fin 6000) (q : Fin 6) (k : Fin 32) :
    dot_S6000x32_S32x6_S6000x6_1_0_0_1_n_n.lhsIdx (ix2 p q)
        ((contrEquiv1 dot_S6000x32_S32x6_S6000x6_1_0_0_1_n_n 32 rfl rfl).symm k) = ix2 p k :=
  funext fun a => Fin.ext (by
    match a with
    | ⟨0, _⟩ => exact lhs_row _ _
    | ⟨1, _⟩ => exact (lhs_col _ _).trans (contrEquiv1_symm_val dot_S6000x32_S32x6_S6000x6_1_0_0_1_n_n 32 rfl rfl k))

theorem rhs_at (p : Fin 6000) (q : Fin 6) (k : Fin 32) :
    dot_S6000x32_S32x6_S6000x6_1_0_0_1_n_n.rhsIdx (ix2 p q)
        ((contrEquiv1 dot_S6000x32_S32x6_S6000x6_1_0_0_1_n_n 32 rfl rfl).symm k) = ix2 k q :=
  funext fun a => Fin.ext (by
    match a with
    | ⟨0, _⟩ => exact (rhs_row _ _).trans (contrEquiv1_symm_val dot_S6000x32_S32x6_S6000x6_1_0_0_1_n_n 32 rfl rfl k)
    | ⟨1, _⟩ => exact rhs_col _ _)

/-! ## The body's arithmetic at one entry of a block -/

/-- What the body stores at row p, class q of its output block, from the blocks it loads: the row's 32 features,
    each normalised (mean subtracted, times the inverse deviation, times the scale, plus the shift) and rectified,
    contracted against column q of the classifier's weights, plus the bias. The products are accumulated onto a zero
    splat, the narrowings are the identity on exact values, and the per-column rows are broadcast down the block. -/
theorem payload_apply (x0 : Vec Ideal S6000x32 .f32) (x1 x2 x3 x4 : Vec Ideal S1x32 .f32) (x5 : Vec Ideal S32x6 .f32)
    (x6 : Vec Ideal S1x6 .f32) (p : Fin 6000) (q : Fin 6) :
    k2_pay1 x0 x1 x2 x3 x4 x5 x6 (ix2 p q)
      = (∑ k : Fin 32, max ((((x0 (ix2 p k) - x1 (ix2 0 k)) * x2 (ix2 0 k)) * x3 (ix2 0 k)) + x4 (ix2 0 k)) Cert.Spec.zeroLit
            * x5 (ix2 k q)) + x6 (ix2 0 q) := by
  unfold k2_pay1
  refine (addf_apply _ _ _).trans ?_
  congr 1
  · refine (Ideal.matmul_constant_zero_apply _ none _ _ _).trans ?_
    rw [← Equiv.sum_comp (contrEquiv1 dot_S6000x32_S32x6_S6000x6_1_0_0_1_n_n 32 rfl rfl).symm]
    refine Finset.sum_congr rfl fun k _ => ?_
    rw [lhs_at, rhs_at]
    rw [truncf_apply, truncf_apply, maximumf_apply, addf_apply, mulf_apply, mulf_apply, subf_apply, broadcast_apply,
      shapeCast_self, shapeCast_self, shapeCast_self, shapeCast_self, shapeCast_self,
      broadcastTo_1b_ab_apply, broadcastTo_1b_ab_apply, broadcastTo_1b_ab_apply, broadcastTo_1b_ab_apply]
    rfl
  · rw [shapeCast_self, broadcastTo_1b_ab_apply]

/-- The same entry against whole arrays: when the loaded blocks are row r's features, the four per-column rows, the
    weights and the bias of the arrays, the stored value is the layer's output at row r, class q. -/
theorem payload_eq_classify (a : Cert.Spec.SNx32.Idx → EReal) (mean invstd γ β : Cert.Spec.S1x32.Idx → EReal)
    (Wc : Cert.Spec.S32x6.Idx → EReal) (bc : Cert.Spec.S1x6.Idx → EReal)
    (x0 : Vec Ideal S6000x32 .f32) (x1 x2 x3 x4 : Vec Ideal S1x32 .f32) (x5 : Vec Ideal S32x6 .f32)
    (x6 : Vec Ideal S1x6 .f32) (p : Fin 6000) (q : Fin 6) (r : Fin 150000)
    (h0 : ∀ k : Fin 32, x0 (ix2 p k) = a (ix2 r k)) (h1 : ∀ k : Fin 32, x1 (ix2 0 k) = mean (ix2 0 k))
    (h2 : ∀ k : Fin 32, x2 (ix2 0 k) = invstd (ix2 0 k)) (h3 : ∀ k : Fin 32, x3 (ix2 0 k) = γ (ix2 0 k))
    (h4 : ∀ k : Fin 32, x4 (ix2 0 k) = β (ix2 0 k)) (h5 : ∀ k : Fin 32, x5 (ix2 k q) = Wc (ix2 k q))
    (h6 : x6 (ix2 0 q) = bc (ix2 0 q)) :
    k2_pay1 x0 x1 x2 x3 x4 x5 x6 (ix2 p q) = Cert.Spec.classify a mean invstd γ β Wc bc (ix2 r q) := by
  rw [payload_apply, h6]
  unfold Cert.Spec.classify
  refine congrArg (· + bc (ix2 0 q)) (Finset.sum_congr rfl fun k _ => ?_)
  rw [h0 k, h1 k, h2 k, h3 k, h4 k, h5 k]

/-! ## From blocks to the array -/

theorem zero_off : (![0, 0] : Fin 2 → Nat) = fun _ => 0 := funext fun a => by fin_cases a <;> rfl

/-- The index maps, decided over the 25 grid points: the feature window and the output window sit at row block t,
    column block 0; the six small operands are whole arrays, at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

set_option maxHeartbeats 400000 in
theorem flushed_eq (V : (c : Dev nD) → (b : Ref sig .tc) → Buf (Elt Ideal) ((c : Thread nD τ).loc b)) (c : Dev nD)
    (t : Fin cfg2.N) :
    (dat2 (F := Ideal) V c).flushed 7 t
      = ((cfg2.win 7).blk t).view.read (Elt Ideal)
          (Cert.Spec.classify (V c main_v50) (V c main_v53) (V c main_v62) (V c main_v63) (V c main_v64) (V c main_arg8) (V c main_v65)) := by
  show (cfg2.win 7).cut (grid2.coords t) ((dat2 V c).after 7 t) = _
  rw [after2_7]
  unfold out2_7
  rw [View.canon_unit_zero zero_off]
  simp only [View.ld_unit_zero (S := S6000x32) zero_off, View.ld_unit_zero (S := S1x32) zero_off,
    View.ld_unit_zero (S := S32x6) zero_off, View.ld_unit_zero (S := S1x6) zero_off]
  funext j
  obtain ⟨e00, e01, e10, e11, e20, e21, e30, e31, e40, e41, e50, e51, e60, e61, e70, e71⟩ := block_index t
  have hj0 : (j 0).val < 6000 := (j 0).isLt
  have hj1 : (j 1).val < 6 := (j 1).isLt
  have ht : t.val < 25 := lt_of_lt_of_eq t.isLt N_2
  have hr : t.val * 6000 + (j 0).val < 150000 := by omega
  have ej : (win2 7).xinj (grid2.coords t) j = ix2 (⟨(j 0).val, hj0⟩ : Fin 6000) (⟨(j 1).val, hj1⟩ : Fin 6) :=
    funext fun a => by match a with | ⟨0, _⟩ => rfl | ⟨1, _⟩ => rfl
  have ei : ((View.whole main_v66).slice ((win2 7).rect t)).emb j
      = ix2 (⟨t.val * 6000 + (j 0).val, hr⟩ : Fin 150000) (⟨(j 1).val, hj1⟩ : Fin 6) :=
    funext fun a => Fin.ext (by
      match a with
      | ⟨0, _⟩ => show win2_7.index t (0 : Fin 2) * 6000 + 1 * (j 0).val = t.val * 6000 + (j 0).val; rw [e70]; omega
      | ⟨1, _⟩ => show win2_7.index t (1 : Fin 2) * 6 + 1 * (j 1).val = (j 1).val; rw [e71]; omega)

  refine ((congrArg (k2_pay1 (F := Ideal) (iblk2 V c 0 t) (iblk2 V c 1 t) (iblk2 V c 2 t) (iblk2 V c 3 t) (iblk2 V c 4 t)
      (iblk2 V c 5 t) (iblk2 V c 6 t)) ej).trans ?_).trans
    (congrArg (Cert.Spec.classify (V c main_v50) (V c main_v53) (V c main_v62) (V c main_v63) (V c main_v64) (V c main_arg8)
      (V c main_v65)) ei).symm
  refine payload_eq_classify (V c main_v50) (V c main_v53) (V c main_v62) (V c main_v63) (V c main_v64) (V c main_arg8) (V c main_v65)
    (iblk2 V c 0 t) (iblk2 V c 1 t) (iblk2 V c 2 t) (iblk2 V c 3 t) (iblk2 V c 4 t) (iblk2 V c 5 t) (iblk2 V c 6 t)
    ⟨(j 0).val, hj0⟩ ⟨(j 1).val, hj1⟩ ⟨t.val * 6000 + (j 0).val, hr⟩ ?_ ?_ ?_ ?_ ?_ ?_ ?_
  · intro k
    show V c main_v50 (((cfg2.win 0).blk t).view.emb (ix2 (⟨(j 0).val, hj0⟩ : Fin 6000) k))
      = V c main_v50 (ix2 (⟨t.val * 6000 + (j 0).val, hr⟩ : Fin 150000) k)
    refine congrArg (V c main_v50) (funext fun a => Fin.ext ?_)
    match a with
    | ⟨0, _⟩ => show win2_0.index t (0 : Fin 2) * 6000 + 1 * (j 0).val = t.val * 6000 + (j 0).val; rw [e00]; omega
    | ⟨1, _⟩ => show win2_0.index t (1 : Fin 2) * 32 + 1 * k.val = k.val; rw [e01]; omega
  · intro k
    show V c main_v53 (((cfg2.win 1).blk t).view.emb (ix2 (0 : Fin 1) k)) = V c main_v53 (ix2 (0 : Fin 1) k)
    refine congrArg (V c main_v53) (funext fun a => Fin.ext ?_)
    match a with
    | ⟨0, _⟩ => show win2_1.index t (0 : Fin 2) * 1 + 1 * 0 = 0; rw [e10]
    | ⟨1, _⟩ => show win2_1.index t (1 : Fin 2) * 32 + 1 * k.val = k.val; rw [e11]; omega
  · intro k
    show V c main_v62 (((cfg2.win 2).blk t).view.emb (ix2 (0 : Fin 1) k)) = V c main_v62 (ix2 (0 : Fin 1) k)
    refine congrArg (V c main_v62) (funext fun a => Fin.ext ?_)
    match a with
    | ⟨0, _⟩ => show win2_2.index t (0 : Fin 2) * 1 + 1 * 0 = 0; rw [e20]
    | ⟨1, _⟩ => show win2_2.index t (1 : Fin 2) * 32 + 1 * k.val = k.val; rw [e21]; omega
  · intro k
    show V c main_v63 (((cfg2.win 3).blk t).view.emb (ix2 (0 : Fin 1) k)) = V c main_v63 (ix2 (0 : Fin 1) k)
    refine congrArg (V c main_v63) (funext fun a => Fin.ext ?_)
    match a with
    | ⟨0, _⟩ => show win2_3.index t (0 : Fin 2) * 1 + 1 * 0 = 0; rw [e30]
    | ⟨1, _⟩ => show win2_3.index t (1 : Fin 2) * 32 + 1 * k.val = k.val; rw [e31]; omega
  · intro k
    show V c main_v64 (((cfg2.win 4).blk t).view.emb (ix2 (0 : Fin 1) k)) = V c main_v64 (ix2 (0 : Fin 1) k)
    refine congrArg (V c main_v64) (funext fun a => Fin.ext ?_)
    match a with
    | ⟨0, _⟩ => show win2_4.index t (0 : Fin 2) * 1 + 1 * 0 = 0; rw [e40]
    | ⟨1, _⟩ => show win2_4.index t (1 : Fin 2) * 32 + 1 * k.val = k.val; rw [e41]; omega
  · intro k
    show V c main_arg8 (((cfg2.win 5).blk t).view.emb (ix2 k (⟨(j 1).val, hj1⟩ : Fin 6)))
      = V c main_arg8 (ix2 k (⟨(j 1).val, hj1⟩ : Fin 6))
    refine congrArg (V c main_arg8) (funext fun a => Fin.ext ?_)
    match a with
    | ⟨0, _⟩ => show win2_5.index t (0 : Fin 2) * 32 + 1 * k.val = k.val; rw [e50]; omega
    | ⟨1, _⟩ => show win2_5.index t (1 : Fin 2) * 6 + 1 * (j 1).val = (j 1).val; rw [e51]; omega
  · show V c main_v65 (((cfg2.win 6).blk t).view.emb (ix2 (0 : Fin 1) (⟨(j 1).val, hj1⟩ : Fin 6)))
      = V c main_v65 (ix2 (0 : Fin 1) (⟨(j 1).val, hj1⟩ : Fin 6))
    refine congrArg (V c main_v65) (funext fun a => Fin.ext ?_)
    match a with
    | ⟨0, _⟩ => show win2_6.index t (0 : Fin 2) * 1 + 1 * 0 = 0; rw [e60]
    | ⟨1, _⟩ => show win2_6.index t (1 : Fin 2) * 6 + 1 * (j 1).val = (j 1).val; rw [e61]; omega

/-- An index of the output array lies in point t's block exactly when, on each axis, its coordinate lies in the range
    of the block: rows 6000 t to 6000 t + 5999, all six classes. -/
theorem mem_block (t : Fin cfg2.N) (i : S150000x6.Idx) :
    i ∈ ((cfg2.win 7).blk t).view.set ↔ ∀ a : Fin 2, win2_7.index t a * S6000x6.size a ≤ (i a).val
      ∧ (i a).val < win2_7.index t a * S6000x6.size a + S6000x6.size a := by
  show i ∈ ((View.whole main_v66).slice (win2_7.rect t)).set ↔ _
  rw [View.set_slice_whole, Rect.mem_set_unit]
  exact Iff.rfl

/-- The 25 blocks of 6000 rows tile the 150000 rows: row r lies in the block of point r / 6000. -/
theorem covered (i : S150000x6.Idx) :
    ∃ t : Fin cfg2.N, (cfg2.win 7).flush t = true ∧ i ∈ ((cfg2.win 7).blk t).view.set := by
  have hi0 : (i 0).val < 150000 := (i 0).isLt
  have hi1 : (i 1).val < 6 := (i 1).isLt
  obtain ⟨t, ht⟩ : ∃ t : Fin cfg2.N, t.val = (i 0).val / 6000 :=
    ⟨⟨(i 0).val / 6000, lt_of_lt_of_eq (by omega : (i 0).val / 6000 < 25) N_2.symm⟩, rfl⟩
  obtain ⟨-, -, -, -, -, -, -, -, -, -, -, -, -, -, e70, e71⟩ := block_index t
  refine ⟨t, flush2_7 t, ?_⟩
  rw [mem_block]
  intro a
  match a with
  | ⟨0, _⟩ =>
    show win2_7.index t (0 : Fin 2) * 6000 ≤ (i 0).val ∧ (i 0).val < win2_7.index t (0 : Fin 2) * 6000 + 6000
    rw [e70, ht]; omega
  | ⟨1, _⟩ =>
    show win2_7.index t (1 : Fin 2) * 6 ≤ (i 1).val ∧ (i 1).val < win2_7.index t (1 : Fin 2) * 6 + 6
    rw [e71]; omega

/-- Kernel 2 leaves in its output array the layer's output, for any contents of its operands on entry: every point
    writes back its block of that function, and the blocks cover the array. -/
theorem final (V : (c : Dev nD) → (b : Ref sig .tc) → Buf (Elt Ideal) ((c : Thread nD τ).loc b)) (c : Dev nD) :
    (dat2 (F := Ideal) V c).arrAt 7 cfg2.N
      = Cert.Spec.classify (V c main_v50) (V c main_v53) (V c main_v62) (V c main_v63) (V c main_v64) (V c main_arg8) (V c main_v65) :=
  (dat2 (F := Ideal) V c).arrAt_eq_of_cover 7
    (Cert.Spec.classify (V c main_v50) (V c main_v53) (V c main_v62) (V c main_v63) (V c main_v64) (V c main_arg8) (V c main_v65))
    (fun t _ => flushed_eq V c t) covered

end Cert.KernelIdeal.Region2
end
-- ==== Proof.KernelValue.lean ====
/-
  The kernel program's result buffer, as one expression of the launch arrays.

  The run's family of buffer contents (one member per segment boundary) is read at the buffers each segment hands to
  the next: the first pallas_call leaves the hidden features `relu(x·W_emb + b_emb)·W_gcn`; the host operations after
  it leave the aggregated features `a` (read in Bridge.lean against the reference's); the second pallas_call leaves
  `a`'s column sums and column sums of squares and `a` itself untouched; the last host stretch turns the sums into
  the column means and inverse standard deviations and lays the scale, shift and class-bias vectors out as rows; the
  third pallas_call leaves the classifier layer of all these. The argument arrays each segment reads are still the
  launch memory's: no host operation and no pallas_call writes an argument.
-/
import proofs.«176874_j1047972020880_2_alg».proof.Proof.Gen.KernelIdeal.Frame
import proofs.«176874_j1047972020880_2_alg».proof.Proof.HostReads
import proofs.«176874_j1047972020880_2_alg».proof.Proof.Region0
import proofs.«176874_j1047972020880_2_alg».proof.Proof.Region1
import proofs.«176874_j1047972020880_2_alg».proof.Proof.Region2
import proofs.«176874_j1047972020880_2_alg».proof.Proof.Spec
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.HostReads

variable (m : (ℓ : Loc nD τ sig) → Buf (Elt Ideal) ℓ) (ρ : Dev nD → PrngReg)

/-! ## What the first pallas_call finds and leaves -/

theorem entry0_x (c : Dev nD) : V1 m ρ c main_arg0 = m ((c : Thread nD τ).loc main_arg0) := kept0_arg0 _
theorem entry0_Wemb (c : Dev nD) : V1 m ρ c main_arg2 = m ((c : Thread nD τ).loc main_arg2) := kept0_arg2 _
theorem entry0_Wgcn (c : Dev nD) : V1 m ρ c main_arg4 = m ((c : Thread nD τ).loc main_arg4) := kept0_arg4 _
theorem entry0_bias (c : Dev nD) : V1 m ρ c main_v0 = Cert.Spec.row32 (m ((c : Thread nD τ).loc main_arg3)) := bias_read _

/-- After the first pallas_call the hidden-feature buffer holds `relu(x·W_emb + b_emb)·W_gcn` of the launch arrays. -/
theorem hidden_value (c : Dev nD) : W2 m ρ c (Proc.devRef .tc main_v1)
    = Cert.Spec.hidden (m ((c : Thread nD τ).loc main_arg0)) (m ((c : Thread nD τ).loc main_arg2))
        (Cert.Spec.row32 (m ((c : Thread nD τ).loc main_arg3))) (m ((c : Thread nD τ).loc main_arg4)) := by
  refine (W2_arr m ρ c 4).trans ((Region0.final (V1 m ρ) c).trans ?_)
  rw [entry0_x, entry0_Wemb, entry0_Wgcn, entry0_bias]

/-! ## What the second pallas_call finds and leaves -/

/-- After the second pallas_call its first output holds the column sums of the aggregated features it found. -/
theorem sums_value (c : Dev nD) : W8 m ρ c (Proc.devRef .tc main_v51_0)
    = Cert.Spec.colSum (W7 m ρ c (Proc.devRef .tc main_v50)) :=
  (W8_arr m ρ c 1).trans (Region1.final_sum (V7 m ρ) c)

/-- Its second output holds the column sums of squares. -/
theorem sumsq_value (c : Dev nD) : W8 m ρ c (Proc.devRef .tc main_v51_1)
    = Cert.Spec.colSumSq (W7 m ρ c (Proc.devRef .tc main_v50)) :=
  (W8_arr m ρ c 2).trans (Region1.final_sumsq (V7 m ρ) c)

/-- It leaves the aggregated features, which it only reads, as it found them. -/
theorem agg_kept1 (c : Dev nD) : W8 m ρ c (Proc.devRef .tc main_v50) = W7 m ρ c (Proc.devRef .tc main_v50) :=
  (W8_arr m ρ c 0).trans (Region1.final_in (V7 m ρ) c)

/-! ## The arguments the last stretch and the third pallas_call read are still as launched -/

theorem gamma_at8 (c : Dev nD) : W8 m ρ c (Proc.devRef .tc main_arg6) = m ((c : Thread nD τ).loc main_arg6) :=
  (kept2_arg6 (W8 m ρ c)).symm.trans ((W10_of_ne m ρ c main_arg6 (by decide)).symm.trans (W10_main_arg6 m ρ c))
theorem beta_at8 (c : Dev nD) : W8 m ρ c (Proc.devRef .tc main_arg7) = m ((c : Thread nD τ).loc main_arg7) :=
  (kept2_arg7 (W8 m ρ c)).symm.trans ((W10_of_ne m ρ c main_arg7 (by decide)).symm.trans (W10_main_arg7 m ρ c))
theorem clsbias_at8 (c : Dev nD) : W8 m ρ c (Proc.devRef .tc main_arg9) = m ((c : Thread nD τ).loc main_arg9) :=
  (kept2_arg9 (W8 m ρ c)).symm.trans ((W10_of_ne m ρ c main_arg9 (by decide)).symm.trans (W10_main_arg9 m ρ c))
/-- The classifier's weights are an input array of the third pallas_call, which leaves its inputs as it found them. -/
theorem clsweights_at9 (c : Dev nD) : W9 m ρ c (Proc.devRef .tc main_arg8) = m ((c : Thread nD τ).loc main_arg8) :=
  ((W10_arr m ρ c 5).trans (((dat2 (V9 m ρ) c).arrAt_in 5 rfl _).trans (A_eq2 (V9 m ρ) c 5))).symm.trans (W10_main_arg8 m ρ c)

/-! ## What the third pallas_call leaves: the result -/

/-- The result buffer at the end: the classifier layer of the aggregated features `a` (what the host operations
    between the first two pallas_calls left), normalised by the statistics the second pallas_call summed. -/
theorem out_value (c : Dev nD) : W10 m ρ c (Proc.devRef .tc main_v66)
    = Cert.Spec.classify (W7 m ρ c (Proc.devRef .tc main_v50))
        (Cert.Spec.meanRow (Cert.Spec.colSum (W7 m ρ c (Proc.devRef .tc main_v50))))
        (Cert.Spec.invStdRow (Cert.Spec.colSum (W7 m ρ c (Proc.devRef .tc main_v50))) (Cert.Spec.colSumSq (W7 m ρ c (Proc.devRef .tc main_v50))))
        (Cert.Spec.row32 (m ((c : Thread nD τ).loc main_arg6))) (Cert.Spec.row32 (m ((c : Thread nD τ).loc main_arg7)))
        (m ((c : Thread nD τ).loc main_arg8)) (Cert.Spec.row6 (m ((c : Thread nD τ).loc main_arg9))) := by
  refine (W10_arr m ρ c 7).trans ((Region2.final (V9 m ρ) c).trans ?_)
  have e50 : V9 m ρ c main_v50 = W7 m ρ c (Proc.devRef .tc main_v50) := (kept2_agg _).trans (agg_kept1 m ρ c)
  have e53 : V9 m ρ c main_v53 = Cert.Spec.meanRow (Cert.Spec.colSum (W7 m ρ c (Proc.devRef .tc main_v50))) :=
    (mean_read _).trans (by rw [sums_value])
  have e62 : V9 m ρ c main_v62 = Cert.Spec.invStdRow (Cert.Spec.colSum (W7 m ρ c (Proc.devRef .tc main_v50)))
      (Cert.Spec.colSumSq (W7 m ρ c (Proc.devRef .tc main_v50))) :=
    (invstd_read _).trans (by rw [sums_value, sumsq_value])
  have e63 : V9 m ρ c main_v63 = Cert.Spec.row32 (m ((c : Thread nD τ).loc main_arg6)) := (gamma_read _).trans (by rw [gamma_at8])
  have e64 : V9 m ρ c main_v64 = Cert.Spec.row32 (m ((c : Thread nD τ).loc main_arg7)) := (beta_read _).trans (by rw [beta_at8])
  have e65 : V9 m ρ c main_v65 = Cert.Spec.row6 (m ((c : Thread nD τ).loc main_arg9)) := (clsbias_read _).trans (by rw [clsbias_at8])
  have e8 : V9 m ρ c main_arg8 = m ((c : Thread nD τ).loc main_arg8) := clsweights_at9 m ρ c
  rw [e50, e53, e62, e63, e64, e65, e8]

/-! ## The arguments the host operations after the first pallas_call read are still as launched -/

theorem edges_at2 (c : Dev nD) : W2 m ρ c (Proc.devRef .tc main_arg1) = m ((c : Thread nD τ).loc main_arg1) :=
  (W2_of_ne m ρ c main_arg1 (by decide)).trans (kept0_arg1 _)
theorem aggbias_at2 (c : Dev nD) : W2 m ρ c (Proc.devRef .tc main_arg5) = m ((c : Thread nD τ).loc main_arg5) :=
  (W2_of_ne m ρ c main_arg5 (by decide)).trans (kept0_arg5 _)

end Cert.KernelIdeal.KernelValue

end
-- ==== Proof.lean ====
/-
  The certificate: a three-kernel graph layer against its plain jnp reference, equal over the extended reals.

  The kernel program computes  h = relu(x·W_emb + b_emb)·W_gcn  in a first pallas_call (25 row tiles), aggregates
  it over the edges and self-loops with symmetric degree normalisation on the host (gather, scale, scatter-add, plus
  b_gcn), sums each column and each column's squares in a second pallas_call (an accumulator over the 25 tiles),
  forms  mean = s/N,  var = max(q/N − mean², 0),  invstd = 1/sqrt(var + ε)  on the host, and in a third pallas_call
  applies  relu((a − mean)·invstd·γ + β)·W_cls + b_cls.  The reference computes the same hidden features and the same
  aggregation with the same host operations, but its batch variance as the mean of squared deviations.

  Frames: the two kernel programs' are generated; the reference's is its run with the result dropped.
  preserves: the ideal pass rewrote nothing.
  algebraic: the kernel's result, read off its run segment by segment (KernelRun, KernelValue), is the classifier
  layer of the aggregated features `a` with the kernel's statistics; `a` is the reference's aggregated features
  (Bridge, through equal hidden features: Region0 and RefSide); every entry of `a` is a real number because every
  float argument is (the precondition: PreFinite; through the layers: Law, RefFinite); for real columns the two
  forms of the variance agree and the clamp at zero is idle (Law), so the classifier layer is the reference's
  (RefSide), at arguments that agree.
-/
import proofs.«176874_j1047972020880_2_alg».proof.Defs
import proofs.«176874_j1047972020880_2_alg».proof.Proof.Gen.Kernel
import proofs.«176874_j1047972020880_2_alg».proof.Proof.Gen.Kernel.Skeleton
import proofs.«176874_j1047972020880_2_alg».proof.Proof.Gen.Kernel.Launch
import proofs.«176874_j1047972020880_2_alg».proof.Proof.Gen.Kernel.Points
import proofs.«176874_j1047972020880_2_alg».proof.Proof.Gen.Kernel.Frame
import proofs.«176874_j1047972020880_2_alg».proof.Proof.Gen.KernelIdeal
import proofs.«176874_j1047972020880_2_alg».proof.Proof.Gen.KernelIdeal.Skeleton
import proofs.«176874_j1047972020880_2_alg».proof.Proof.Gen.KernelIdeal.Launch
import proofs.«176874_j1047972020880_2_alg».proof.Proof.Gen.KernelIdeal.Points
import proofs.«176874_j1047972020880_2_alg».proof.Proof.Gen.KernelIdeal.Frame
import proofs.«176874_j1047972020880_2_alg».proof.Proof.Gen.ReferenceIdeal
import proofs.«176874_j1047972020880_2_alg».proof.Proof.Gen.Pre_finite_inputs
import proofs.«176874_j1047972020880_2_alg».proof.Proof.RefRunP
import proofs.«176874_j1047972020880_2_alg».proof.Proof.RefReadP
import proofs.«176874_j1047972020880_2_alg».proof.Proof.Spec
import proofs.«176874_j1047972020880_2_alg».proof.Proof.Law
import proofs.«176874_j1047972020880_2_alg».proof.Proof.PreFinite
import proofs.«176874_j1047972020880_2_alg».proof.Proof.RefSide
import proofs.«176874_j1047972020880_2_alg».proof.Proof.RefFinite
import proofs.«176874_j1047972020880_2_alg».proof.Proof.Bridge
import proofs.«176874_j1047972020880_2_alg».proof.Proof.KernelRun
import proofs.«176874_j1047972020880_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's result is the reference's -/

open Cert.KernelIdeal Cert.KernelIdeal.Gen Cert.KernelIdeal.KernelValue in
/-- On one device: from launch memories agreeing on the ten arguments, all float arguments finite, the contents the
    kernel program's run ends with in its result buffer are the reference's composed result term. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (fun _ => 1#1))
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    W10 m ρ c (Proc.devRef .tc Cert.KernelIdeal.main_v66) = Cert.ReferenceIdeal.ValueP.res_main_v84 m' c := by
  -- the reference's term is its last stage, at arguments that are the kernel's
  rw [Cert.ReferenceIdeal.ReadP.val_main_v84_eq m' c, g0, g1, g2, g3, g4, g5, g6, g7, g8, g9]
  -- every float argument is real-valued
  obtain ⟨r0, r2, r3, r4, r5, -, -, -, -⟩ := Cert.PreFinite.allReal_of_pre _ _ _ _ _ _ _ _ _ _ hpre
  -- the hidden features agree, hence the aggregated features
  have hh := (hidden_value m ρ c).trans (Cert.RefSide.hidden_eq _ _ _ _).symm
  have hA := Cert.Bridge.agg_eq (W2 m ρ c) _ _ _ _ _ _ hh (edges_at2 m ρ c) (aggbias_at2 m ρ c)
  -- and they are real-valued
  have hreal := Cert.RefFinite.agg_allReal _ (m ((c.tc : Thread Cert.KernelIdeal.nD Cert.KernelIdeal.τ).loc Cert.KernelIdeal.main_arg1)) _ _ _ _
    (by rw [Cert.RefSide.hidden_eq]; exact Cert.Spec.hidden_allReal _ _ _ _ r0 r2 (fun i => r3 _) r4) r5
  -- the kernel's layer with its statistics is the reference's layer
  rw [out_value, show W7 m ρ c (Proc.devRef .tc Cert.KernelIdeal.main_v50) = _ from hA, Cert.Spec.classify_eq_ref _ hreal,
    ← Cert.RefSide.out_eq]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.ReferenceIdeal.ValueP.res_main_v84 m' c, ?_, Cert.ReferenceIdeal.ValueP.run (F := Ideal) m' ρ'⟩
  refine (θ_run Cert.KernelIdeal.defs _ _).mono (fun r h c => ⟨(h c).1.trans ?_, (h c).2⟩)
    (Cert.KernelIdeal.RunValue.run_named m ρ)
  obtain ⟨g0, g1, g2, g3, g4, g5, g6, g7, g8, g9⟩ := hagree c
  exact result_eq m ρ m' c (hpre c) g0 g1 g2 g3 g4 g5 g6 g7 g8 g9

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
